-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x257 : Shape := ⟨3, ![8, 2048, 257]⟩
abbrev S257x257 : Shape := ⟨2, ![257, 257]⟩
abbrev S257 : Shape := ⟨1, ![257]⟩
abbrev S_ : Shape := ⟨0, ![]⟩

class Facts : Prop where
  bcast_S_S8x2048x257 : S_.BroadcastsInDim S8x2048x257 (![] : Fin 0 → Fin S8x2048x257.rank)
  reducesTo_S8x2048x257_S_d0_1_2 : S8x2048x257.ReducesTo [0, 1, 2] S_
  h_S_ : 0 < S_.numel
  bcast_S_S257x257 : S_.BroadcastsInDim S257x257 (![] : Fin 0 → Fin S257x257.rank)
  reducesTo_S257x257_S_d0_1 : S257x257.ReducesTo [0, 1] S_
  bcast_S_S257 : S_.BroadcastsInDim S257 (![] : Fin 0 → Fin S257.rank)
  reducesTo_S257_S_d0 : S257.ReducesTo [0] S_

variable [Facts]

def fn_part3 {F : FTy → Type} [FloatOps F] (main_v48 : IVec S_ 1) (main_v49 : FVec F S257 .f32) (main_v50 : FVec F S257 .f32) : IVec S_ 1 :=
  let main_v51 : IVec S257 1 := cmpf .olt main_v49 main_v50
  let main_c_19 : IVec S_ 1 := constantI S_ 1 1#1
  let main_v52 : IVec S_ 1 := (fun x v => Host.reduce IntOp.andi x v reducesTo_S257_S_d0 h_S_) main_v51 main_c_19
  let main_v53 : IVec S_ 1 := andi main_v48 main_v52
  main_v53

def fn_part2 {F : FTy → Type} [FloatOps F] (main_arg7 : FVec F S257x257 .f32) (main_arg8 : FVec F S257 .f32) (main_arg9 : FVec F S257x257 .f32) (main_arg10 : FVec F S257 .f32) (main_v33 : IVec S_ 1) : IVec S_ 1 :=
  let main_v34 : FVec F S257x257 .f32 := Host.absf main_arg7
  let main_cst_12 : FVec F S_ .f32 := constant S_ .f32 0x7F800000#32
  let main_v35 : FVec F S257x257 .f32 := broadcastInDim S257x257 ![] bcast_S_S257x257 main_cst_12
  let main_v36 : IVec S257x257 1 := cmpf .olt main_v34 main_v35
  let main_c_13 : IVec S_ 1 := constantI S_ 1 1#1
  let main_v37 : IVec S_ 1 := (fun x v => Host.reduce IntOp.andi x v reducesTo_S257x257_S_d0_1 h_S_) main_v36 main_c_13
  let main_v38 : IVec S_ 1 := andi main_v33 main_v37
  let main_v39 : FVec F S257 .f32 := Host.absf main_arg8
  let main_cst_14 : FVec F S_ .f32 := constant S_ .f32 0x7F800000#32
  let main_v40 : FVec F S257 .f32 := broadcastInDim S257 ![] bcast_S_S257 main_cst_14
  let main_v41 : IVec S257 1 := cmpf .olt main_v39 main_v40
  let main_c_15 : IVec S_ 1 := constantI S_ 1 1#1
  let main_v42 : IVec S_ 1 := (fun x v => Host.reduce IntOp.andi x v reducesTo_S257_S_d0 h_S_) main_v41 main_c_15
  let main_v43 : IVec S_ 1 := andi main_v38 main_v42
  let main_v44 : FVec F S257x257 .f32 := Host.absf main_arg9
  let main_cst_16 : FVec F S_ .f32 := constant S_ .f32 0x7F800000#32
  let main_v45 : FVec F S257x257 .f32 := broadcastInDim S257x257 ![] bcast_S_S257x257 main_cst_16
  let main_v46 : IVec S257x257 1 := cmpf .olt main_v44 main_v45
  let main_c_17 : IVec S_ 1 := constantI S_ 1 1#1
  let main_v47 : IVec S_ 1 := (fun x v => Host.reduce IntOp.andi x v reducesTo_S257x257_S_d0_1 h_S_) main_v46 main_c_17
  let main_v48 : IVec S_ 1 := andi main_v43 main_v47
  let main_v49 : FVec F S257 .f32 := Host.absf main_arg10
  let main_cst_18 : FVec F S_ .f32 := constant S_ .f32 0x7F800000#32
  let main_v50 : FVec F S257 .f32 := broadcastInDim S257 ![] bcast_S_S257 main_cst_18
  fn_part3 (F := F) main_v48 main_v49 main_v50

def fn_part1 {F : FTy → Type} [FloatOps F] (main_arg4 : FVec F S257 .f32) (main_arg5 : FVec F S257x257 .f32) (main_arg6 : FVec F S257 .f32) (main_arg7 : FVec F S257x257 .f32) (main_arg8 : FVec F S257 .f32) (main_arg9 : FVec F S257x257 .f32) (main_arg10 : FVec F S257 .f32) (main_v13 : IVec S_ 1) (main_v16 : IVec S257x257 1) : IVec S_ 1 :=
  let main_c_5 : IVec S_ 1 := constantI S_ 1 1#1
  let main_v17 : IVec S_ 1 := (fun x v => Host.reduce IntOp.andi x v reducesTo_S257x257_S_d0_1 h_S_) main_v16 main_c_5
  let main_v18 : IVec S_ 1 := andi main_v13 main_v17
  let main_v19 : FVec F S257 .f32 := Host.absf main_arg4
  let main_cst_6 : FVec F S_ .f32 := constant S_ .f32 0x7F800000#32
  let main_v20 : FVec F S257 .f32 := broadcastInDim S257 ![] bcast_S_S257 main_cst_6
  let main_v21 : IVec S257 1 := cmpf .olt main_v19 main_v20
  let main_c_7 : IVec S_ 1 := constantI S_ 1 1#1
  let main_v22 : IVec S_ 1 := (fun x v => Host.reduce IntOp.andi x v reducesTo_S257_S_d0 h_S_) main_v21 main_c_7
  let main_v23 : IVec S_ 1 := andi main_v18 main_v22
  let main_v24 : FVec F S257x257 .f32 := Host.absf main_arg5
  let main_cst_8 : FVec F S_ .f32 := constant S_ .f32 0x7F800000#32
  let main_v25 : FVec F S257x257 .f32 := broadcastInDim S257x257 ![] bcast_S_S257x257 main_cst_8
  let main_v26 : IVec S257x257 1 := cmpf .olt main_v24 main_v25
  let main_c_9 : IVec S_ 1 := constantI S_ 1 1#1
  let main_v27 : IVec S_ 1 := (fun x v => Host.reduce IntOp.andi x v reducesTo_S257x257_S_d0_1 h_S_) main_v26 main_c_9
  let main_v28 : IVec S_ 1 := andi main_v23 main_v27
  let main_v29 : FVec F S257 .f32 := Host.absf main_arg6
  let main_cst_10 : FVec F S_ .f32 := constant S_ .f32 0x7F800000#32
  let main_v30 : FVec F S257 .f32 := broadcastInDim S257 ![] bcast_S_S257 main_cst_10
  let main_v31 : IVec S257 1 := cmpf .olt main_v29 main_v30
  let main_c_11 : IVec S_ 1 := constantI S_ 1 1#1
  let main_v32 : IVec S_ 1 := (fun x v => Host.reduce IntOp.andi x v reducesTo_S257_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x257 .f32) (main_arg1 : FVec F S8x2048x257 .f32) (main_arg2 : FVec F S8x2048x257 .f32) (main_arg3 : FVec F S257x257 .f32) (main_arg4 : FVec F S257 .f32) (main_arg5 : FVec F S257x257 .f32) (main_arg6 : FVec F S257 .f32) (main_arg7 : FVec F S257x257 .f32) (main_arg8 : FVec F S257 .f32) (main_arg9 : FVec F S257x257 .f32) (main_arg10 : FVec F S257 .f32) : IVec S_ 1 :=
  let main_v0 : FVec F S8x2048x257 .f32 := Host.absf main_arg0
  let main_cst : FVec F S_ .f32 := constant S_ .f32 0x7F800000#32
  let main_v1 : FVec F S8x2048x257 .f32 := broadcastInDim S8x2048x257 ![] bcast_S_S8x2048x257 main_cst
  let main_v2 : IVec S8x2048x257 1 := cmpf .olt main_v0 main_v1
  let main_c : IVec S_ 1 := constantI S_ 1 1#1
  let main_v3 : IVec S_ 1 := (fun x v => Host.reduce IntOp.andi x v reducesTo_S8x2048x257_S_d0_1_2 h_S_) main_v2 main_c
  let main_v4 : FVec F S8x2048x257 .f32 := Host.absf main_arg1
  let main_cst_0 : FVec F S_ .f32 := constant S_ .f32 0x7F800000#32
  let main_v5 : FVec F S8x2048x257 .f32 := broadcastInDim S8x2048x257 ![] bcast_S_S8x2048x257 main_cst_0
  let main_v6 : IVec S8x2048x257 1 := cmpf .olt main_v4 main_v5
  let main_c_1 : IVec S_ 1 := constantI S_ 1 1#1
  let main_v7 : IVec S_ 1 := (fun x v => Host.reduce IntOp.andi x v reducesTo_S8x2048x257_S_d0_1_2 h_S_) main_v6 main_c_1
  let main_v8 : IVec S_ 1 := andi main_v3 main_v7
  let main_v9 : FVec F S8x2048x257 .f32 := Host.absf main_arg2
  let main_cst_2 : FVec F S_ .f32 := constant S_ .f32 0x7F800000#32
  let main_v10 : FVec F S8x2048x257 .f32 := broadcastInDim S8x2048x257 ![] bcast_S_S8x2048x257 main_cst_2
  let main_v11 : IVec S8x2048x257 1 := cmpf .olt main_v9 main_v10
  let main_c_3 : IVec S_ 1 := constantI S_ 1 1#1
  let main_v12 : IVec S_ 1 := (fun x v => Host.reduce IntOp.andi x v reducesTo_S8x2048x257_S_d0_1_2 h_S_) main_v11 main_c_3
  let main_v13 : IVec S_ 1 := andi main_v8 main_v12
  let main_v14 : FVec F S257x257 .f32 := Host.absf main_arg3
  let main_cst_4 : FVec F S_ .f32 := constant S_ .f32 0x7F800000#32
  let main_v15 : FVec F S257x257 .f32 := broadcastInDim S257x257 ![] bcast_S_S257x257 main_cst_4
  let main_v16 : IVec S257x257 1 := cmpf .olt main_v14 main_v15
  fn_part1 (F := F) main_arg4 main_arg5 main_arg6 main_arg7 main_arg8 main_arg9 main_arg10 main_v13 main_v16
-- ==== Kernel.lean ====
abbrev S8x2048x257 : Shape := ⟨3, ![8, 2048, 257]⟩
abbrev S257x257 : Shape := ⟨2, ![257, 257]⟩
abbrev S257 : Shape := ⟨1, ![257]⟩
abbrev S1x512x257 : Shape := ⟨3, ![1, 512, 257]⟩
abbrev S1x2048x257 : Shape := ⟨3, ![1, 2048, 257]⟩
abbrev S2048x257 : Shape := ⟨2, ![2048, 257]⟩
abbrev S1x257 : Shape := ⟨2, ![1, 257]⟩
abbrev S512x257 : Shape := ⟨2, ![512, 257]⟩
abbrev S512x512 : Shape := ⟨2, ![512, 512]⟩

abbrev nBuf : Space → Nat
  | .hbm => 20
  | .vmem => 18
  | .smem => 0
  | _ => 0

abbrev bufTy : (tb : Table) → Fin (tcTables nBuf tb) → BufTy
  | .hbm, ⟨0, _⟩ => ⟨S8x2048x257, .f32⟩
  | .hbm, ⟨1, _⟩ => ⟨S8x2048x257, .f32⟩
  | .hbm, ⟨2, _⟩ => ⟨S8x2048x257, .f32⟩
  | .hbm, ⟨3, _⟩ => ⟨S257x257, .f32⟩
  | .hbm, ⟨4, _⟩ => ⟨S257, .f32⟩
  | .hbm, ⟨5, _⟩ => ⟨S257x257, .f32⟩
  | .hbm, ⟨6, _⟩ => ⟨S257, .f32⟩
  | .hbm, ⟨7, _⟩ => ⟨S257x257, .f32⟩
  | .hbm, ⟨8, _⟩ => ⟨S257, .f32⟩
  | .hbm, ⟨9, _⟩ => ⟨S257x257, .f32⟩
  | .hbm, ⟨10, _⟩ => ⟨S257, .f32⟩
  | .hbm, ⟨11, _⟩ => ⟨S257x257, .f32⟩
  | .hbm, ⟨12, _⟩ => ⟨S257x257, .bf16⟩
  | .hbm, ⟨13, _⟩ => ⟨S257x257, .f32⟩
  | .hbm, ⟨14, _⟩ => ⟨S257x257, .bf16⟩
  | .hbm, ⟨15, _⟩ => ⟨S257x257, .f32⟩
  | .hbm, ⟨16, _⟩ => ⟨S257x257, .bf16⟩
  | .hbm, ⟨17, _⟩ => ⟨S257x257, .f32⟩
  | .hbm, ⟨18, _⟩ => ⟨S257x257, .bf16⟩
  | .hbm, ⟨19, _⟩ => ⟨S8x2048x257, .f32⟩
  | .local _ .vmem, ⟨0, _⟩ => ⟨S1x512x257, .f32⟩
  | .local _ .vmem, ⟨1, _⟩ => ⟨S1x512x257, .f32⟩
  | .local _ .vmem, ⟨2, _⟩ => ⟨S1x2048x257, .f32⟩
  | .local _ .vmem, ⟨3, _⟩ => ⟨S1x2048x257, .f32⟩
  | .local _ .vmem, ⟨4, _⟩ => ⟨S1x2048x257, .f32⟩
  | .local _ .vmem, ⟨5, _⟩ => ⟨S1x2048x257, .f32⟩
  | .local _ .vmem, ⟨6, _⟩ => ⟨S257x257, .bf16⟩
  | .local _ .vmem, ⟨7, _⟩ => ⟨S257, .f32⟩
  | .local _ .vmem, ⟨8, _⟩ => ⟨S257x257, .bf16⟩
  | .local _ .vmem, ⟨9, _⟩ => ⟨S257, .f32⟩
  | .local _ .vmem, ⟨10, _⟩ => ⟨S257x257, .bf16⟩
  | .local _ .vmem, ⟨11, _⟩ => ⟨S257, .f32⟩
  | .local _ .vmem, ⟨12, _⟩ => ⟨S257x257, .bf16⟩
  | .local _ .vmem, ⟨13, _⟩ => ⟨S257, .f32⟩
  | .local _ .vmem, ⟨14, _⟩ => ⟨S1x512x257, .f32⟩
  | .local _ .vmem, ⟨15, _⟩ => ⟨S1x512x257, .f32⟩
  | .local _ .vmem, ⟨16, _⟩ => ⟨S2048x257, .bf16⟩
  | .local _ .vmem, ⟨17, _⟩ => ⟨S2048x257, .bf16⟩
  | _, _ => ⟨S8x2048x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 4], ![false, false]⟩

def k0_mult1 : BitVec 32 :=
  let c0_i32_7 : BitVec 32 := 0#32
  let c512_i32 : BitVec 32 := 512#32
  let v15 : BitVec 32 := Scalar.muli c0_i32_7 c512_i32
  v15
def k0_off1 (c0_i32_7 : BitVec 32) : Fin 2 → Nat :=
  let c512_i32 : BitVec 32 := 512#32
  let v15 : BitVec 32 := Scalar.muli c0_i32_7 c512_i32
  let v16 : BitVec 32 := v15
  let v17 : Index := Scalar.indexCast v16
  let c0_8 : Index := 0#32
  ![v17.toNat, 0]
def k0_mult2 : BitVec 32 :=
  let c1_i32 : BitVec 32 := 1#32
  let c512_i32_13 : BitVec 32 := 512#32
  let v28 : BitVec 32 := Scalar.muli c1_i32 c512_i32_13
  v28
def k0_mult3 : BitVec 32 :=
  let c2_i32 : BitVec 32 := 2#32
  let c512_i32_19 : BitVec 32 := 512#32
  let v41 : BitVec 32 := Scalar.muli c2_i32 c512_i32_19
  v41
def k0_mult4 : BitVec 32 :=
  let c3_i32 : BitVec 32 := 3#32
  let c512_i32_25 : BitVec 32 := 512#32
  let v54 : BitVec 32 := Scalar.muli c3_i32 c512_i32_25
  v54
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S257x257 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S257x257 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S257 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S257x257 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S257 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S257x257 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S257 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x257 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S257x257_S257x257_1_0 : S257x257.Transposes [1, 0] S257x257
  bitsLt_bf16_f32 : FTy.bits .bf16 < FTy.bits .f32
  inb_S1x2048x257_S1x2048x257_0_0_0 : ∀ a, (![0, 0, 0] : Fin 3 → Nat) a + S1x2048x257.size a ≤ S1x2048x257.size a
  h_S1x2048x257 : 0 < S1x2048x257.numel
  shapeCasts_S1x2048x257_S2048x257 : S1x2048x257.ShapeCasts S2048x257
  inb_S257x257_S257x257_0_0 : ∀ a, (![0, 0] : Fin 2 → Nat) a + S257x257.size a ≤ S257x257.size a
  h_S257x257 : 0 < S257x257.numel
  shapeCasts_S257x257_S257x257 : S257x257.ShapeCasts S257x257
  inb_S257_S257_0 : ∀ a, (![0] : Fin 1 → Nat) a + S257.size a ≤ S257.size a
  h_S257 : 0 < S257.numel
  shapeCasts_S257_S1x257 : S257.ShapeCasts S1x257
  broadcasts_S1x257_S2048x257 : S1x257.Broadcasts S2048x257
  inb_S2048x257_S2048x257_0_0 : ∀ a, (![0, 0] : Fin 2 → Nat) a + S2048x257.size a ≤ S2048x257.size a
  h_S2048x257 : 0 < S2048x257.numel
  shapeCasts_S2048x257_S2048x257 : S2048x257.ShapeCasts S2048x257
  packedbf16_S2048x257_S2048x257_0_0 : (Rect.unit (s := S2048x257) ![0, 0] S2048x257.size inb_S2048x257_S2048x257_0_0).PackedRows (EltTy.packing .bf16)
  inb_S1x512x257_S1x512x257_0_0_0 : ∀ a, (![0, 0, 0] : Fin 3 → Nat) a + S1x512x257.size a ≤ S1x512x257.size a
  h_S1x512x257 : 0 < S1x512x257.numel
  shapeCasts_S1x512x257_S512x257 : S1x512x257.ShapeCasts S512x257
  broadcasts_S1x257_S512x257 : S1x257.Broadcasts S512x257
  h_S512x257 : 0 < S512x257.numel
  shapeCasts_S512x257_S1x512x257 : S512x257.ShapeCasts S1x512x257
  dot_S2048x257_S257x257_S2048x257_1_0_0_1_n_n_wf : DotDims.WF S2048x257 S257x257 S2048x257 [1] [0] [0] [1] [] []
  dot_S512x257_S257x257_S512x257_1_0_0_1_n_n_wf : DotDims.WF S512x257 S257x257 S512x257 [1] [0] [0] [1] [] []
  dot_S512x257_S512x257_S512x512_1_1_0_0_n_n_wf : DotDims.WF S512x257 S512x257 S512x512 [1] [1] [0] [0] [] []
  dot_S512x512_S512x257_S512x257_1_0_0_1_n_n_wf : DotDims.WF S512x512 S512x257 S512x257 [1] [0] [0] [1] [] []
  hrank0 : 0 < grid0.rank
  k0_mult1_dvd : 512 ∣ k0_mult1.toNat
  k0_off1_inb : ∀ (r : Fin 4), ∀ a, (k0_off1 (BitVec.ofNat 32 r.val)) a + S512x257.size a ≤ S2048x257.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x257.size a ≤ S8x2048x257.size a
  hwx0_0 : ∀ i : grid0.Coords, EltTy.bits .f32 = 32 ∨ (Rect.block (s := S8x2048x257) S1x512x257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x257.size a ≤ S8x2048x257.size a
  hwx0_1 : ∀ i : grid0.Coords, EltTy.bits .f32 = 32 ∨ (Rect.block (s := S8x2048x257) S1x2048x257.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x257.size a ≤ S8x2048x257.size a
  hwx0_2 : ∀ i : grid0.Coords, EltTy.bits .f32 = 32 ∨ (Rect.block (s := S8x2048x257) S1x2048x257.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S257x257.size a ≤ S257x257.size a
  hwx0_3 : ∀ i : grid0.Coords, EltTy.bits .bf16 = 32 ∨ (Rect.block (s := S257x257) S257x257.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S257.size a ≤ S257.size a
  hwx0_4 : ∀ i : grid0.Coords, EltTy.bits .f32 = 32 ∨ (Rect.block (s := S257) S257.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S257x257.size a ≤ S257x257.size a
  hwx0_5 : ∀ i : grid0.Coords, EltTy.bits .bf16 = 32 ∨ (Rect.block (s := S257x257) S257x257.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S257.size a ≤ S257.size a
  hwx0_6 : ∀ i : grid0.Coords, EltTy.bits .f32 = 32 ∨ (Rect.block (s := S257) S257.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S257x257.size a ≤ S257x257.size a
  hwx0_7 : ∀ i : grid0.Coords, EltTy.bits .bf16 = 32 ∨ (Rect.block (s := S257x257) S257x257.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S257.size a ≤ S257.size a
  hwx0_8 : ∀ i : grid0.Coords, EltTy.bits .f32 = 32 ∨ (Rect.block (s := S257) S257.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S257x257.size a ≤ S257x257.size a
  hwx0_9 : ∀ i : grid0.Coords, EltTy.bits .bf16 = 32 ∨ (Rect.block (s := S257x257) S257x257.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S257.size a ≤ S257.size a
  hwx0_10 : ∀ i : grid0.Coords, EltTy.bits .f32 = 32 ∨ (Rect.block (s := S257) S257.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x257.size a ≤ S8x2048x257.size a
  hwx0_11 : ∀ i : grid0.Coords, EltTy.bits .f32 = 32 ∨ (Rect.block (s := S8x2048x257) S1x512x257.size (cc0_transform_11 i) (hinb0_11 i)).WholeWords (EltTy.packing .f32)

variable [Facts₀]

def dot_S2048x257_S257x257_S2048x257_1_0_0_1_n_n : DotDims S2048x257 S257x257 S2048x257 where
  lhsContracting := [1]
  rhsContracting := [0]
  lhsNonContracting := [0]
  rhsNonContracting := [1]
  lhsBatch := []
  rhsBatch := []
  wf := dot_S2048x257_S257x257_S2048x257_1_0_0_1_n_n_wf
def dot_S512x257_S257x257_S512x257_1_0_0_1_n_n : DotDims S512x257 S257x257 S512x257 where
  lhsContracting := [1]
  rhsContracting := [0]
  lhsNonContracting := [0]
  rhsNonContracting := [1]
  lhsBatch := []
  rhsBatch := []
  wf := dot_S512x257_S257x257_S512x257_1_0_0_1_n_n_wf
def dot_S512x257_S512x257_S512x512_1_1_0_0_n_n : DotDims S512x257 S512x257 S512x512 where
  lhsContracting := [1]
  rhsContracting := [1]
  lhsNonContracting := [0]
  rhsNonContracting := [0]
  lhsBatch := []
  rhsBatch := []
  wf := dot_S512x257_S512x257_S512x512_1_1_0_0_n_n_wf
def dot_S512x512_S512x257_S512x257_1_0_0_1_n_n : DotDims S512x512 S512x257 S512x257 where
  lhsContracting := [1]
  rhsContracting := [0]
  lhsNonContracting := [0]
  rhsNonContracting := [1]
  lhsBatch := []
  rhsBatch := []
  wf := dot_S512x512_S512x257_S512x257_1_0_0_1_n_n_wf

abbrev win0_0 : Pipeline.Window sig grid0 :=
  Pipeline.Window.ofSpec (Memref.whole main_arg0) S1x512x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x257.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S257x257.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S257.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S257x257.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S257.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S257x257.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S257.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S257x257.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S257.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x512x257.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x2048x257 : Shape := ⟨3, ![8, 2048, 257]⟩
abbrev S257x257 : Shape := ⟨2, ![257, 257]⟩
abbrev S257 : Shape := ⟨1, ![257]⟩
abbrev S1x1x257 : Shape := ⟨3, ![1, 1, 257]⟩
abbrev S8x2048x2048 : Shape := ⟨3, ![8, 2048, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x257, .f32⟩
  | .hbm, ⟨1, _⟩ => ⟨S8x2048x257, .f32⟩
  | .hbm, ⟨2, _⟩ => ⟨S8x2048x257, .f32⟩
  | .hbm, ⟨3, _⟩ => ⟨S257x257, .f32⟩
  | .hbm, ⟨4, _⟩ => ⟨S257, .f32⟩
  | .hbm, ⟨5, _⟩ => ⟨S257x257, .f32⟩
  | .hbm, ⟨6, _⟩ => ⟨S257, .f32⟩
  | .hbm, ⟨7, _⟩ => ⟨S257x257, .f32⟩
  | .hbm, ⟨8, _⟩ => ⟨S257, .f32⟩
  | .hbm, ⟨9, _⟩ => ⟨S257x257, .f32⟩
  | .hbm, ⟨10, _⟩ => ⟨S257, .f32⟩
  | .hbm, ⟨11, _⟩ => ⟨S8x2048x257, .f32⟩
  | .hbm, ⟨12, _⟩ => ⟨S1x1x257, .f32⟩
  | .hbm, ⟨13, _⟩ => ⟨S8x2048x257, .f32⟩
  | .hbm, ⟨14, _⟩ => ⟨S8x2048x257, .f32⟩
  | .hbm, ⟨15, _⟩ => ⟨S8x2048x257, .f32⟩
  | .hbm, ⟨16, _⟩ => ⟨S1x1x257, .f32⟩
  | .hbm, ⟨17, _⟩ => ⟨S8x2048x257, .f32⟩
  | .hbm, ⟨18, _⟩ => ⟨S8x2048x257, .f32⟩
  | .hbm, ⟨19, _⟩ => ⟨S8x2048x257, .f32⟩
  | .hbm, ⟨20, _⟩ => ⟨S1x1x257, .f32⟩
  | .hbm, ⟨21, _⟩ => ⟨S8x2048x257, .f32⟩
  | .hbm, ⟨22, _⟩ => ⟨S8x2048x257, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S8x2048x2048, .f32⟩
  | .hbm, ⟨35, _⟩ => ⟨S8x2048x257, .f32⟩
  | .hbm, ⟨36, _⟩ => ⟨S8x2048x257, .f32⟩
  | .hbm, ⟨37, _⟩ => ⟨S1x1x257, .f32⟩
  | .hbm, ⟨38, _⟩ => ⟨S8x2048x257, .f32⟩
  | .hbm, ⟨39, _⟩ => ⟨S8x2048x257, .f32⟩
  | _, _ => ⟨S8x2048x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S257_S1x1x257_2 : S257.BroadcastsInDim S1x1x257 (![2] : Fin 1 → Fin S1x1x257.rank)
  bcast_S1x1x257_S8x2048x257_0_1_2 : S1x1x257.BroadcastsInDim S8x2048x257 (![0, 1, 2] : Fin 3 → Fin S8x2048x257.rank)
  bcast_S_S8x2048x2048 : S_.BroadcastsInDim S8x2048x2048 (![] : Fin 0 → Fin S8x2048x2048.rank)
  dot_S8x2048x257_S257x257_S8x2048x257_2_1_01_0_n_n_wf : DotDims.WF S8x2048x257 S257x257 S8x2048x257 [2] [1] [0, 1] [0] [] []
  dot_S8x2048x257_S8x2048x257_S8x2048x2048_2_2_1_1_0_0_wf : DotDims.WF S8x2048x257 S8x2048x257 S8x2048x2048 [2] [2] [1] [1] [0] [0]
  dot_S8x2048x2048_S8x2048x257_S8x2048x257_2_1_1_2_0_0_wf : DotDims.WF S8x2048x2048 S8x2048x257 S8x2048x257 [2] [1] [1] [2] [0] [0]

variable [Facts₀]

def dot_S8x2048x257_S257x257_S8x2048x257_2_1_01_0_n_n : DotDims S8x2048x257 S257x257 S8x2048x257 where
  lhsContracting := [2]
  rhsContracting := [1]
  lhsNonContracting := [0, 1]
  rhsNonContracting := [0]
  lhsBatch := []
  rhsBatch := []
  wf := dot_S8x2048x257_S257x257_S8x2048x257_2_1_01_0_n_n_wf
def dot_S8x2048x257_S8x2048x257_S8x2048x2048_2_2_1_1_0_0 : DotDims S8x2048x257 S8x2048x257 S8x2048x2048 where
  lhsContracting := [2]
  rhsContracting := [2]
  lhsNonContracting := [1]
  rhsNonContracting := [1]
  lhsBatch := [0]
  rhsBatch := [0]
  wf := dot_S8x2048x257_S8x2048x257_S8x2048x2048_2_2_1_1_0_0_wf
def dot_S8x2048x2048_S8x2048x257_S8x2048x257_2_1_1_2_0_0 : DotDims S8x2048x2048 S8x2048x257 S8x2048x257 where
  lhsContracting := [2]
  rhsContracting := [1]
  lhsNonContracting := [1]
  rhsNonContracting := [2]
  lhsBatch := [0]
  rhsBatch := [0]
  wf := dot_S8x2048x2048_S8x2048x257_S8x2048x257_2_1_1_2_0_0_wf

class Facts : Prop extends Facts₀ where

variable [Facts]
-- ==== Proof.CaseValues.lean ====
/-
  What the kernel's body leaves behind at one grid point, as values.

  A grid point (n, j) handles batch n and the j-th run of 512 query rows. Its body has two cases. At j = 0 it first
  fills two scratch arrays of [2048, 257] — the key projections and the value projections of the whole batch — each
  by ONE store of the whole array; at j ≠ 0 it stores nothing there and the scratch arrays hold what the point before
  left. In both cases it then stores the [1, 512, 257] output block once, whole: the output projection of the context
  of its 512 query rows, the context accumulated over four runs of 512 rows read back from the two scratch arrays.

  So the output block is ONE function `blockOut` of the point's input blocks and of the two scratch contents K and V
  (`out_carried`); at j = 0 the scratch contents are the two projections just stored (`keys_filled`, `values_filled`),
  and the reads of their runs see exactly those stores (`out_filled`). Everything here holds for any float
  interpretation: no arithmetic is opened.
-/
import proofs.«126550_j16844861735386_2_alg».proof.Proof.Gen.KernelIdeal.Frame
import Idealize.ShloMosaic.Lib.Pipeline.Value
import Idealize.ShloMosaic.Lib.Tactic

set_option maxRecDepth 16384

noncomputable section

namespace Cert.KernelIdeal.CaseValue

open Cert.KernelIdeal Cert.KernelIdeal.Gen Idealize.ShloMosaic Idealize.ShloMosaic.TcCoe Idealize.ShloMosaic.Tactic Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Rows o … o+511 (all 257 columns) of a [2048, 257] array lie inside it. -/
theorem rows_inb (o : Nat) (h : o + 512 ≤ 2048) : ∀ a, (![o, 0] : Fin 2 → Nat) a + S512x257.size a ≤ S2048x257.size a := fun a => by
  match a with
  | ⟨0, _⟩ => show o + 512 ≤ 2048; exact h
  | ⟨1, _⟩ => show 0 + 257 ≤ 257; omega

/-- The run of 512 rows starting at row o of a [2048, 257] array. -/
def rowsAt (o : Nat) (h : o + 512 ≤ 2048) (X : Vec F S2048x257 .bf16) : Vec F S512x257 .bf16 :=
  View.ld (Val := Elt F) X (Rect.unit ![o, 0] S512x257.size (rows_inb o h))

/-- The output block the body stores, from the query block x0, the query weights x3 and bias x4, the scratch contents
    K (key projections) and V (value projections), and the output weights x9 and bias x10: the four runs of 512 rows of
    K and V enter the accumulation in order. -/
def blockOut (x0 : Vec F S1x512x257 .f32) (x3 : Vec F S257x257 .bf16) (x4 : Vec F S257 .f32)
    (K V : Vec F S2048x257 .bf16) (x9 : Vec F S257x257 .bf16) (x10 : Vec F S257 .f32) : Vec F S1x512x257 .f32 :=
  k0_pay1
    (k0_pay7 (k0_pay4 x0 x3 x4)
      (k0_pay5 x0 x3 x4 (rowsAt 0 (by decide) K) (rowsAt 0 (by decide) V))
      (rowsAt 512 (by decide) V)
      (k0_pay6 x0 x3 x4 (rowsAt 512 (by decide) K))
      (rowsAt 1024 (by decide) K) (rowsAt 1024 (by decide) V)
      (rowsAt 1536 (by decide) K) (rowsAt 1536 (by decide) V) x9)
    (k0_pay8 x10)

/-- A read of a run of rows right after ONE store of the whole array sees the stored array's rows. -/
theorem readCov_after_fill {sig' : RefSig} {κ : Kind} {sp : Space} (v : View sig' κ sp S2048x257 .bf16)
    (inb : ∀ a, (![0, 0] : Fin 2 → Nat) a + S2048x257.size a ≤ S2048x257.size a) (w : S2048x257.Idx → Elt F .bf16)
    (r : Rect S2048x257) :
    v.readCov [(⟨Rect.unit ![0, 0] S2048x257.size inb, w⟩ : View.Piece (Elt F) S2048x257 .bf16)] r.toLoadRect
      = View.ld (Val := Elt F) w r := by
  rw [View.readCov_eq_canon', View.canon_unit_zero hz2]

/-- Case j = 0: the key-projection scratch is filled with the projection payload of the batch's keys. -/
theorem keys_filled (c : Dev nD) (i : grid0.Coords) (arg2 : Memref sig .tc .vmem S1x512x257 .f32) (harg2 : arg2.IsWhole) (arg3 : Memref sig .tc .vmem S1x2048x257 .f32) (harg3 : arg3.IsWhole) (arg4 : Memref sig .tc .vmem S1x2048x257 .f32) (harg4 : arg4.IsWhole) (arg5 : Memref sig .tc .vmem S257x257 .bf16) (harg5 : arg5.IsWhole) (arg6 : Memref sig .tc .vmem S257 .f32) (harg6 : arg6.IsWhole) (arg7 : Memref sig .tc .vmem S257x257 .bf16) (harg7 : arg7.IsWhole) (arg8 : Memref sig .tc .vmem S257 .f32) (harg8 : arg8.IsWhole) (arg9 : Memref sig .tc .vmem S257x257 .bf16) (harg9 : arg9.IsWhole) (arg10 : Memref sig .tc .vmem S257 .f32) (harg10 : arg10.IsWhole) (arg11 : Memref sig .tc .vmem S257x257 .bf16) (harg11 : arg11.IsWhole) (arg12 : Memref sig .tc .vmem S257 .f32) (harg12 : arg12.IsWhole) (arg13 : Memref sig .tc .vmem S1x512x257 .f32) (harg13 : arg13.IsWhole) (arg14 : Memref sig .tc .vmem S2048x257 .bf16) (harg14 : arg14.IsWhole) (arg15 : Memref sig .tc .vmem S2048x257 .bf16) (harg15 : arg15.IsWhole) (hc0 : cond0_0 i)
    (x0 : Vec F S1x512x257 .f32) (x1 : Vec F S1x2048x257 .f32) (x2 : Vec F S1x2048x257 .f32) (x3 : Vec F S257x257 .bf16) (x4 : Vec F S257 .f32) (x5 : Vec F S257x257 .bf16) (x6 : Vec F S257 .f32) (x7 : Vec F S257x257 .bf16) (x8 : Vec F S257 .f32) (x9 : Vec F S257x257 .bf16) (x10 : Vec F S257 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay2 x1 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz2]
  simp only [View.readAt_eq_ld, harg3.read_unread, harg7.read_unread, harg8.read_unread,
    View.ld_unit_zero (S := S1x2048x257) hz3, View.ld_unit_zero (S := S257x257) hz2, View.ld_unit_zero (S := S257) hz1]

/-- Case j = 0: the value-projection scratch is filled with the projection payload of the batch's values. -/
theorem values_filled (c : Dev nD) (i : grid0.Coords) (arg2 : Memref sig .tc .vmem S1x512x257 .f32) (harg2 : arg2.IsWhole) (arg3 : Memref sig .tc .vmem S1x2048x257 .f32) (harg3 : arg3.IsWhole) (arg4 : Memref sig .tc .vmem S1x2048x257 .f32) (harg4 : arg4.IsWhole) (arg5 : Memref sig .tc .vmem S257x257 .bf16) (harg5 : arg5.IsWhole) (arg6 : Memref sig .tc .vmem S257 .f32) (harg6 : arg6.IsWhole) (arg7 : Memref sig .tc .vmem S257x257 .bf16) (harg7 : arg7.IsWhole) (arg8 : Memref sig .tc .vmem S257 .f32) (harg8 : arg8.IsWhole) (arg9 : Memref sig .tc .vmem S257x257 .bf16) (harg9 : arg9.IsWhole) (arg10 : Memref sig .tc .vmem S257 .f32) (harg10 : arg10.IsWhole) (arg11 : Memref sig .tc .vmem S257x257 .bf16) (harg11 : arg11.IsWhole) (arg12 : Memref sig .tc .vmem S257 .f32) (harg12 : arg12.IsWhole) (arg13 : Memref sig .tc .vmem S1x512x257 .f32) (harg13 : arg13.IsWhole) (arg14 : Memref sig .tc .vmem S2048x257 .bf16) (harg14 : arg14.IsWhole) (arg15 : Memref sig .tc .vmem S2048x257 .bf16) (harg15 : arg15.IsWhole) (hc0 : cond0_0 i)
    (x0 : Vec F S1x512x257 .f32) (x1 : Vec F S1x2048x257 .f32) (x2 : Vec F S1x2048x257 .f32) (x3 : Vec F S257x257 .bf16) (x4 : Vec F S257 .f32) (x5 : Vec F S257x257 .bf16) (x6 : Vec F S257 .f32) (x7 : Vec F S257x257 .bf16) (x8 : Vec F S257 .f32) (x9 : Vec F S257x257 .bf16) (x10 : Vec F S257 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay3 x2 x7 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz2]
  simp only [View.readAt_eq_ld, harg4.read_unread, harg9.read_unread, harg10.read_unread,
    View.ld_unit_zero (S := S1x2048x257) hz3, View.ld_unit_zero (S := S257x257) hz2, View.ld_unit_zero (S := S257) hz1]

/-- Case j ≠ 0: the output block over the carried scratch contents. -/
theorem out_carried (c : Dev nD) (i : grid0.Coords) (arg2 : Memref sig .tc .vmem S1x512x257 .f32) (harg2 : arg2.IsWhole) (arg3 : Memref sig .tc .vmem S1x2048x257 .f32) (harg3 : arg3.IsWhole) (arg4 : Memref sig .tc .vmem S1x2048x257 .f32) (harg4 : arg4.IsWhole) (arg5 : Memref sig .tc .vmem S257x257 .bf16) (harg5 : arg5.IsWhole) (arg6 : Memref sig .tc .vmem S257 .f32) (harg6 : arg6.IsWhole) (arg7 : Memref sig .tc .vmem S257x257 .bf16) (harg7 : arg7.IsWhole) (arg8 : Memref sig .tc .vmem S257 .f32) (harg8 : arg8.IsWhole) (arg9 : Memref sig .tc .vmem S257x257 .bf16) (harg9 : arg9.IsWhole) (arg10 : Memref sig .tc .vmem S257 .f32) (harg10 : arg10.IsWhole) (arg11 : Memref sig .tc .vmem S257x257 .bf16) (harg11 : arg11.IsWhole) (arg12 : Memref sig .tc .vmem S257 .f32) (harg12 : arg12.IsWhole) (arg13 : Memref sig .tc .vmem S1x512x257 .f32) (harg13 : arg13.IsWhole) (arg14 : Memref sig .tc .vmem S2048x257 .bf16) (harg14 : arg14.IsWhole) (arg15 : Memref sig .tc .vmem S2048x257 .bf16) (harg15 : arg15.IsWhole) (hc0 : ¬cond0_0 i)
    (x0 : Vec F S1x512x257 .f32) (x1 : Vec F S1x2048x257 .f32) (x2 : Vec F S1x2048x257 .f32) (x3 : Vec F S257x257 .bf16) (x4 : Vec F S257 .f32) (x5 : Vec F S257x257 .bf16) (x6 : Vec F S257 .f32) (x7 : Vec F S257x257 .bf16) (x8 : Vec F S257 .f32) (x9 : Vec F S257x257 .bf16) (x10 : Vec F S257 .f32) (xs0 : Vec F S2048x257 .bf16) (xs1 : Vec F S2048x257 .bf16) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = blockOut x0 x3 x4 xs0 xs1 x9 x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1)]
  unfold kernelRun0_B
  dsimp only
  sl_unfold_words
  rw [View.canon_unit_zero hz3]
  simp only [View.readAt_eq_ld, harg2.read_unread, harg5.read_unread, harg6.read_unread, harg11.read_unread,
    harg12.read_unread, harg14.read_unread, harg15.read_unread,
    View.ld_unit_zero (S := S1x512x257) hz3, View.ld_unit_zero (S := S257x257) hz2, View.ld_unit_zero (S := S257) hz1]
  rfl

/-- Case j = 0: the output block over the two projections just stored. -/
theorem out_filled (c : Dev nD) (i : grid0.Coords) (arg2 : Memref sig .tc .vmem S1x512x257 .f32) (harg2 : arg2.IsWhole) (arg3 : Memref sig .tc .vmem S1x2048x257 .f32) (harg3 : arg3.IsWhole) (arg4 : Memref sig .tc .vmem S1x2048x257 .f32) (harg4 : arg4.IsWhole) (arg5 : Memref sig .tc .vmem S257x257 .bf16) (harg5 : arg5.IsWhole) (arg6 : Memref sig .tc .vmem S257 .f32) (harg6 : arg6.IsWhole) (arg7 : Memref sig .tc .vmem S257x257 .bf16) (harg7 : arg7.IsWhole) (arg8 : Memref sig .tc .vmem S257 .f32) (harg8 : arg8.IsWhole) (arg9 : Memref sig .tc .vmem S257x257 .bf16) (harg9 : arg9.IsWhole) (arg10 : Memref sig .tc .vmem S257 .f32) (harg10 : arg10.IsWhole) (arg11 : Memref sig .tc .vmem S257x257 .bf16) (harg11 : arg11.IsWhole) (arg12 : Memref sig .tc .vmem S257 .f32) (harg12 : arg12.IsWhole) (arg13 : Memref sig .tc .vmem S1x512x257 .f32) (harg13 : arg13.IsWhole) (arg14 : Memref sig .tc .vmem S2048x257 .bf16) (harg14 : arg14.IsWhole) (arg15 : Memref sig .tc .vmem S2048x257 .bf16) (harg15 : arg15.IsWhole) (hc0 : cond0_0 i)
    (x0 : Vec F S1x512x257 .f32) (x1 : Vec F S1x2048x257 .f32) (x2 : Vec F S1x2048x257 .f32) (x3 : Vec F S257x257 .bf16) (x4 : Vec F S257 .f32) (x5 : Vec F S257x257 .bf16) (x6 : Vec F S257 .f32) (x7 : Vec F S257x257 .bf16) (x8 : Vec F S257 .f32) (x9 : Vec F S257x257 .bf16) (x10 : Vec F S257 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = blockOut x0 x3 x4 (k0_pay2 x1 x5 x6) (k0_pay3 x2 x7 x8) x9 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz3]
  simp only [View.readCov_eq_canon', View.canon_unit_zero (S := S2048x257) hz2, View.readAt_eq_ld, harg2.read_unread, harg3.read_unread, harg4.read_unread,
    harg5.read_unread, harg6.read_unread, harg7.read_unread, harg8.read_unread, harg9.read_unread, harg10.read_unread,
    harg11.read_unread, harg12.read_unread,
    View.ld_unit_zero (S := S1x512x257) hz3, View.ld_unit_zero (S := S1x2048x257) hz3,
    View.ld_unit_zero (S := S257x257) hz2, View.ld_unit_zero (S := S257) hz1]
  rfl

end Cert.KernelIdeal.CaseValue

end
-- ==== Proof.MatmulReads.lean ====
/-
  A matrix product into a zero accumulator, read at one entry over the extended reals, is the plain sum over the
  contracted coordinate of the products of the two operands' entries — no rounding and no chunk order left in it.
  One statement per product shape the kernel's body uses; the operand entries are written by coordinates.
-/
import proofs.«126550_j16844861735386_2_alg».proof.Proof.Gen.KernelIdeal
import Idealize.ShloMosaic.PureOps.Ideal.Laws
import Idealize.ShloMosaic.Lib.ValueIdx

noncomputable section

namespace Cert.KernelIdeal.MatmulRead

open Cert.KernelIdeal Cert.KernelIdeal.Gen Idealize.ShloMosaic Idealize.ShloMosaic.ValueIdx

variable {φ₁ φ₂ : FTy}

/-! ## a [2048,257] × [257,257] product: rows of the left operand against columns of the right -/

theorem projKV_lhs_row (i : S2048x257.Idx) (q : dot_S2048x257_S257x257_S2048x257_1_0_0_1_n_n.contr.Idx) : (dot_S2048x257_S257x257_S2048x257_1_0_0_1_n_n.lhsIdx i q 0).val = (i 0).val := by
  unfold DotDims.lhsIdx
  rw [dif_neg (show ¬(0 : Fin S2048x257.rank) ∈ dot_S2048x257_S257x257_S2048x257_1_0_0_1_n_n.lhsBatch by decide), dif_pos (show (0 : Fin S2048x257.rank) ∈ dot_S2048x257_S257x257_S2048x257_1_0_0_1_n_n.lhsNonContracting by decide)]
  rfl
theorem projKV_lhs_contr (i : S2048x257.Idx) (q : dot_S2048x257_S257x257_S2048x257_1_0_0_1_n_n.contr.Idx) : (dot_S2048x257_S257x257_S2048x257_1_0_0_1_n_n.lhsIdx i q 1).val = (q ⟨0, by decide⟩).val :=
  dot_S2048x257_S257x257_S2048x257_1_0_0_1_n_n.lhsIdx_val_of_single rfl i q
theorem projKV_rhs_free (i : S2048x257.Idx) (q : dot_S2048x257_S257x257_S2048x257_1_0_0_1_n_n.contr.Idx) : (dot_S2048x257_S257x257_S2048x257_1_0_0_1_n_n.rhsIdx i q 1).val = (i 1).val := by
  unfold DotDims.rhsIdx
  rw [dif_neg (show ¬(1 : Fin S257x257.rank) ∈ dot_S2048x257_S257x257_S2048x257_1_0_0_1_n_n.rhsBatch by decide), dif_pos (show (1 : Fin S257x257.rank) ∈ dot_S2048x257_S257x257_S2048x257_1_0_0_1_n_n.rhsNonContracting by decide)]
  rfl
theorem projKV_rhs_contr (i : S2048x257.Idx) (q : dot_S2048x257_S257x257_S2048x257_1_0_0_1_n_n.contr.Idx) : (dot_S2048x257_S257x257_S2048x257_1_0_0_1_n_n.rhsIdx i q 0).val = (q ⟨0, by decide⟩).val :=
  dot_S2048x257_S257x257_S2048x257_1_0_0_1_n_n.rhsIdx_val_of_single rfl i q

/-- Entry (r, c) of the product is ∑ k, L (r, k) · R (k, c). -/
theorem projKV_apply (L : FVec Ideal S2048x257 φ₁) (R : FVec Ideal S257x257 φ₂) (r : Fin 2048) (c : Fin 257) :
    matmul dot_S2048x257_S257x257_S2048x257_1_0_0_1_n_n none L R (constant (F := Ideal) S2048x257 .f32 0x00000000#32) (ix2 r c)
      = ∑ k : Fin 257, L (ix2 r k) * R (ix2 k c) := by
  simp only [matmul]
  rw [Ideal.matmul_constant_zero_apply, ← Equiv.sum_comp (ValueIdx.contrEquiv1 dot_S2048x257_S257x257_S2048x257_1_0_0_1_n_n 257 rfl rfl).symm]
  refine Finset.sum_congr rfl fun k _ => ?_
  have hk := ValueIdx.contrEquiv1_symm_val dot_S2048x257_S257x257_S2048x257_1_0_0_1_n_n 257 rfl rfl k
  have el : dot_S2048x257_S257x257_S2048x257_1_0_0_1_n_n.lhsIdx (ix2 r c) ((ValueIdx.contrEquiv1 dot_S2048x257_S257x257_S2048x257_1_0_0_1_n_n 257 rfl rfl).symm k) = ix2 r k := funext fun a => Fin.ext (by
    match a with
    | ⟨0, _⟩ => exact projKV_lhs_row _ _
    | ⟨1, _⟩ => exact (projKV_lhs_contr _ _).trans hk)
  have er : dot_S2048x257_S257x257_S2048x257_1_0_0_1_n_n.rhsIdx (ix2 r c) ((ValueIdx.contrEquiv1 dot_S2048x257_S257x257_S2048x257_1_0_0_1_n_n 257 rfl rfl).symm k) = ix2 k c := funext fun a => Fin.ext (by
    match a with
    | ⟨1, _⟩ => exact projKV_rhs_free _ _
    | ⟨0, _⟩ => exact (projKV_rhs_contr _ _).trans hk)
  rw [el, er]

/-! ## a [512,257] × [257,257] product: rows of the left operand against columns of the right -/

theorem projQO_lhs_row (i : S512x257.Idx) (q : dot_S512x257_S257x257_S512x257_1_0_0_1_n_n.contr.Idx) : (dot_S512x257_S257x257_S512x257_1_0_0_1_n_n.lhsIdx i q 0).val = (i 0).val := by
  unfold DotDims.lhsIdx
  rw [dif_neg (show ¬(0 : Fin S512x257.rank) ∈ dot_S512x257_S257x257_S512x257_1_0_0_1_n_n.lhsBatch by decide), dif_pos (show (0 : Fin S512x257.rank) ∈ dot_S512x257_S257x257_S512x257_1_0_0_1_n_n.lhsNonContracting by decide)]
  rfl
theorem projQO_lhs_contr (i : S512x257.Idx) (q : dot_S512x257_S257x257_S512x257_1_0_0_1_n_n.contr.Idx) : (dot_S512x257_S257x257_S512x257_1_0_0_1_n_n.lhsIdx i q 1).val = (q ⟨0, by decide⟩).val :=
  dot_S512x257_S257x257_S512x257_1_0_0_1_n_n.lhsIdx_val_of_single rfl i q
theorem projQO_rhs_free (i : S512x257.Idx) (q : dot_S512x257_S257x257_S512x257_1_0_0_1_n_n.contr.Idx) : (dot_S512x257_S257x257_S512x257_1_0_0_1_n_n.rhsIdx i q 1).val = (i 1).val := by
  unfold DotDims.rhsIdx
  rw [dif_neg (show ¬(1 : Fin S257x257.rank) ∈ dot_S512x257_S257x257_S512x257_1_0_0_1_n_n.rhsBatch by decide), dif_pos (show (1 : Fin S257x257.rank) ∈ dot_S512x257_S257x257_S512x257_1_0_0_1_n_n.rhsNonContracting by decide)]
  rfl
theorem projQO_rhs_contr (i : S512x257.Idx) (q : dot_S512x257_S257x257_S512x257_1_0_0_1_n_n.contr.Idx) : (dot_S512x257_S257x257_S512x257_1_0_0_1_n_n.rhsIdx i q 0).val = (q ⟨0, by decide⟩).val :=
  dot_S512x257_S257x257_S512x257_1_0_0_1_n_n.rhsIdx_val_of_single rfl i q

/-- Entry (r, c) of the product is ∑ k, L (r, k) · R (k, c). -/
theorem projQO_apply (L : FVec Ideal S512x257 φ₁) (R : FVec Ideal S257x257 φ₂) (r : Fin 512) (c : Fin 257) :
    matmul dot_S512x257_S257x257_S512x257_1_0_0_1_n_n none L R (constant (F := Ideal) S512x257 .f32 0x00000000#32) (ix2 r c)
      = ∑ k : Fin 257, L (ix2 r k) * R (ix2 k c) := by
  simp only [matmul]
  rw [Ideal.matmul_constant_zero_apply, ← Equiv.sum_comp (ValueIdx.contrEquiv1 dot_S512x257_S257x257_S512x257_1_0_0_1_n_n 257 rfl rfl).symm]
  refine Finset.sum_congr rfl fun k _ => ?_
  have hk := ValueIdx.contrEquiv1_symm_val dot_S512x257_S257x257_S512x257_1_0_0_1_n_n 257 rfl rfl k
  have el : dot_S512x257_S257x257_S512x257_1_0_0_1_n_n.lhsIdx (ix2 r c) ((ValueIdx.contrEquiv1 dot_S512x257_S257x257_S512x257_1_0_0_1_n_n 257 rfl rfl).symm k) = ix2 r k := funext fun a => Fin.ext (by
    match a with
    | ⟨0, _⟩ => exact projQO_lhs_row _ _
    | ⟨1, _⟩ => exact (projQO_lhs_contr _ _).trans hk)
  have er : dot_S512x257_S257x257_S512x257_1_0_0_1_n_n.rhsIdx (ix2 r c) ((ValueIdx.contrEquiv1 dot_S512x257_S257x257_S512x257_1_0_0_1_n_n 257 rfl rfl).symm k) = ix2 k c := funext fun a => Fin.ext (by
    match a with
    | ⟨1, _⟩ => exact projQO_rhs_free _ _
    | ⟨0, _⟩ => exact (projQO_rhs_contr _ _).trans hk)
  rw [el, er]

/-! ## a [512,257] × [512,257]ᵀ product: the inner products of the left operand's rows with the right operand's rows -/

theorem inner_lhs_row (i : S512x512.Idx) (q : dot_S512x257_S512x257_S512x512_1_1_0_0_n_n.contr.Idx) : (dot_S512x257_S512x257_S512x512_1_1_0_0_n_n.lhsIdx i q 0).val = (i 0).val := by
  unfold DotDims.lhsIdx
  rw [dif_neg (show ¬(0 : Fin S512x257.rank) ∈ dot_S512x257_S512x257_S512x512_1_1_0_0_n_n.lhsBatch by decide), dif_pos (show (0 : Fin S512x257.rank) ∈ dot_S512x257_S512x257_S512x512_1_1_0_0_n_n.lhsNonContracting by decide)]
  rfl
theorem inner_lhs_contr (i : S512x512.Idx) (q : dot_S512x257_S512x257_S512x512_1_1_0_0_n_n.contr.Idx) : (dot_S512x257_S512x257_S512x512_1_1_0_0_n_n.lhsIdx i q 1).val = (q ⟨0, by decide⟩).val :=
  dot_S512x257_S512x257_S512x512_1_1_0_0_n_n.lhsIdx_val_of_single rfl i q
theorem inner_rhs_free (i : S512x512.Idx) (q : dot_S512x257_S512x257_S512x512_1_1_0_0_n_n.contr.Idx) : (dot_S512x257_S512x257_S512x512_1_1_0_0_n_n.rhsIdx i q 0).val = (i 1).val := by
  unfold DotDims.rhsIdx
  rw [dif_neg (show ¬(0 : Fin S512x257.rank) ∈ dot_S512x257_S512x257_S512x512_1_1_0_0_n_n.rhsBatch by decide), dif_pos (show (0 : Fin S512x257.rank) ∈ dot_S512x257_S512x257_S512x512_1_1_0_0_n_n.rhsNonContracting by decide)]
  rfl
theorem inner_rhs_contr (i : S512x512.Idx) (q : dot_S512x257_S512x257_S512x512_1_1_0_0_n_n.contr.Idx) : (dot_S512x257_S512x257_S512x512_1_1_0_0_n_n.rhsIdx i q 1).val = (q ⟨0, by decide⟩).val :=
  dot_S512x257_S512x257_S512x512_1_1_0_0_n_n.rhsIdx_val_of_single rfl i q

/-- Entry (r, c) of the product is ∑ k, L (r, k) · R (c, k). -/
theorem inner_apply (L : FVec Ideal S512x257 φ₁) (R : FVec Ideal S512x257 φ₂) (r : Fin 512) (c : Fin 512) :
    matmul dot_S512x257_S512x257_S512x512_1_1_0_0_n_n none L R (constant (F := Ideal) S512x512 .f32 0x00000000#32) (ix2 r c)
      = ∑ k : Fin 257, L (ix2 r k) * R (ix2 c k) := by
  simp only [matmul]
  rw [Ideal.matmul_constant_zero_apply, ← Equiv.sum_comp (ValueIdx.contrEquiv1 dot_S512x257_S512x257_S512x512_1_1_0_0_n_n 257 rfl rfl).symm]
  refine Finset.sum_congr rfl fun k _ => ?_
  have hk := ValueIdx.contrEquiv1_symm_val dot_S512x257_S512x257_S512x512_1_1_0_0_n_n 257 rfl rfl k
  have el : dot_S512x257_S512x257_S512x512_1_1_0_0_n_n.lhsIdx (ix2 r c) ((ValueIdx.contrEquiv1 dot_S512x257_S512x257_S512x512_1_1_0_0_n_n 257 rfl rfl).symm k) = ix2 r k := funext fun a => Fin.ext (by
    match a with
    | ⟨0, _⟩ => exact inner_lhs_row _ _
    | ⟨1, _⟩ => exact (inner_lhs_contr _ _).trans hk)
  have er : dot_S512x257_S512x257_S512x512_1_1_0_0_n_n.rhsIdx (ix2 r c) ((ValueIdx.contrEquiv1 dot_S512x257_S512x257_S512x512_1_1_0_0_n_n 257 rfl rfl).symm k) = ix2 c k := funext fun a => Fin.ext (by
    match a with
    | ⟨0, _⟩ => exact inner_rhs_free _ _
    | ⟨1, _⟩ => exact (inner_rhs_contr _ _).trans hk)
  rw [el, er]

/-! ## a [512,512] × [512,257] product: rows of the left operand against columns of the right -/

theorem weighted_lhs_row (i : S512x257.Idx) (q : dot_S512x512_S512x257_S512x257_1_0_0_1_n_n.contr.Idx) : (dot_S512x512_S512x257_S512x257_1_0_0_1_n_n.lhsIdx i q 0).val = (i 0).val := by
  unfold DotDims.lhsIdx
  rw [dif_neg (show ¬(0 : Fin S512x512.rank) ∈ dot_S512x512_S512x257_S512x257_1_0_0_1_n_n.lhsBatch by decide), dif_pos (show (0 : Fin S512x512.rank) ∈ dot_S512x512_S512x257_S512x257_1_0_0_1_n_n.lhsNonContracting by decide)]
  rfl
theorem weighted_lhs_contr (i : S512x257.Idx) (q : dot_S512x512_S512x257_S512x257_1_0_0_1_n_n.contr.Idx) : (dot_S512x512_S512x257_S512x257_1_0_0_1_n_n.lhsIdx i q 1).val = (q ⟨0, by decide⟩).val :=
  dot_S512x512_S512x257_S512x257_1_0_0_1_n_n.lhsIdx_val_of_single rfl i q
theorem weighted_rhs_free (i : S512x257.Idx) (q : dot_S512x512_S512x257_S512x257_1_0_0_1_n_n.contr.Idx) : (dot_S512x512_S512x257_S512x257_1_0_0_1_n_n.rhsIdx i q 1).val = (i 1).val := by
  unfold DotDims.rhsIdx
  rw [dif_neg (show ¬(1 : Fin S512x257.rank) ∈ dot_S512x512_S512x257_S512x257_1_0_0_1_n_n.rhsBatch by decide), dif_pos (show (1 : Fin S512x257.rank) ∈ dot_S512x512_S512x257_S512x257_1_0_0_1_n_n.rhsNonContracting by decide)]
  rfl
theorem weighted_rhs_contr (i : S512x257.Idx) (q : dot_S512x512_S512x257_S512x257_1_0_0_1_n_n.contr.Idx) : (dot_S512x512_S512x257_S512x257_1_0_0_1_n_n.rhsIdx i q 0).val = (q ⟨0, by decide⟩).val :=
  dot_S512x512_S512x257_S512x257_1_0_0_1_n_n.rhsIdx_val_of_single rfl i q

/-- Entry (r, c) of the product is ∑ k, L (r, k) · R (k, c). -/
theorem weighted_apply (L : FVec Ideal S512x512 φ₁) (R : FVec Ideal S512x257 φ₂) (r : Fin 512) (c : Fin 257) :
    matmul dot_S512x512_S512x257_S512x257_1_0_0_1_n_n none L R (constant (F := Ideal) S512x257 .f32 0x00000000#32) (ix2 r c)
      = ∑ k : Fin 512, L (ix2 r k) * R (ix2 k c) := by
  simp only [matmul]
  rw [Ideal.matmul_constant_zero_apply, ← Equiv.sum_comp (ValueIdx.contrEquiv1 dot_S512x512_S512x257_S512x257_1_0_0_1_n_n 512 rfl rfl).symm]
  refine Finset.sum_congr rfl fun k _ => ?_
  have hk := ValueIdx.contrEquiv1_symm_val dot_S512x512_S512x257_S512x257_1_0_0_1_n_n 512 rfl rfl k
  have el : dot_S512x512_S512x257_S512x257_1_0_0_1_n_n.lhsIdx (ix2 r c) ((ValueIdx.contrEquiv1 dot_S512x512_S512x257_S512x257_1_0_0_1_n_n 512 rfl rfl).symm k) = ix2 r k := funext fun a => Fin.ext (by
    match a with
    | ⟨0, _⟩ => exact weighted_lhs_row _ _
    | ⟨1, _⟩ => exact (weighted_lhs_contr _ _).trans hk)
  have er : dot_S512x512_S512x257_S512x257_1_0_0_1_n_n.rhsIdx (ix2 r c) ((ValueIdx.contrEquiv1 dot_S512x512_S512x257_S512x257_1_0_0_1_n_n 512 rfl rfl).symm k) = ix2 k c := funext fun a => Fin.ext (by
    match a with
    | ⟨1, _⟩ => exact weighted_rhs_free _ _
    | ⟨0, _⟩ => exact (weighted_rhs_contr _ _).trans hk)
  rw [el, er]

end Cert.KernelIdeal.MatmulRead

end
-- ==== Proof.AttentionSpec.lean ====
/-
  The mathematics of this certificate, free of either program.

  Inputs: activations q, k, v of shape [8, 2048, 257]; four weight matrices [257, 257] and four bias rows [257].
  A projection is x·Wᵀ + b:  proj x W b (n, r, e) = (∑ d, x (n, r, d) · W (e, d)) + b e.
  With qp, kp, vp the projections of q, k, v, the attention weight of query row r on key row s in batch n is the
  logistic of the scaled inner product, σ((∑ e, qp (n, r, e) · kp (n, s, e)) · c) for one fixed scale word c; the
  context is their weighted sum of the value rows, ctx (n, r, e) = ∑ s, σ(…)(n, r, s) · vp (n, s, e) over all 2048 key
  rows; and the result is the output projection of the context, (∑ e, ctx (n, r, e) · Wo (d, e)) + bo d.

  Everything is over the extended reals, where + and · are commutative and associative (infinities included), so a
  sum over the 2048 key rows may be taken as four sums over consecutive runs of 512 rows added one after another
  starting from zero: `keysum_chunks`. That regrouping is the only law the two programs differ by; it needs no
  finiteness of any input.
-/
import Idealize.ShloMosaic.PureOps.Ideal
import Idealize.ShloMosaic.PureOps.Ideal.Laws
import Idealize.ShloMosaic.Lib.ValueIdx

noncomputable section

namespace Cert.AttentionSpec

open Idealize.ShloMosaic Idealize.ShloMosaic.ValueIdx

/-- An activation array [8, 2048, 257], a weight matrix [257, 257], a bias row [257], over the extended reals. -/
abbrev Act := (⟨3, ![8, 2048, 257]⟩ : Shape).Idx → EReal
abbrev Mat := (⟨2, ![257, 257]⟩ : Shape).Idx → EReal
abbrev Row := (⟨1, ![257]⟩ : Shape).Idx → EReal

/-- The scale word both programs multiply the inner products by (the f32 nearest 1/√257), as an extended real. -/
abbrev scale : EReal := Ideal.ofBits .f32 0x3D7F8060#32

/-- A linear layer x·Wᵀ + b at batch n, row r, output feature e. -/
def proj (x : Act) (W : Mat) (b : Row) (n : Fin 8) (r : Fin 2048) (e : Fin 257) : EReal :=
  (∑ d : Fin 257, x (ix3 n r d) * W (ix2 e d)) + b (ix1 e)

/-- The attention weight of query row r on key row s: the logistic of the scaled inner product of their projections. -/
def weight (qp kp : Fin 8 → Fin 2048 → Fin 257 → EReal) (n : Fin 8) (r s : Fin 2048) : EReal :=
  Ideal.logistic ((∑ e : Fin 257, qp n r e * kp n s e) * scale)

/-- The context: the value projections' rows summed with the attention weights, over all 2048 key rows. -/
def context (qp kp vp : Fin 8 → Fin 2048 → Fin 257 → EReal) (n : Fin 8) (r : Fin 2048) (e : Fin 257) : EReal :=
  ∑ s : Fin 2048, weight qp kp n r s * vp n s e

/-- The result at batch n, row r, feature d: the output projection of the context. -/
def result (q k v : Act) (Wq : Mat) (bq : Row) (Wk : Mat) (bk : Row) (Wv : Mat) (bv : Row) (Wo : Mat) (bo : Row)
    (n : Fin 8) (r : Fin 2048) (d : Fin 257) : EReal :=
  (∑ e : Fin 257, context (proj q Wq bq) (proj k Wk bk) (proj v Wv bv) n r e * Wo (ix2 d e)) + bo (ix1 d)

/-- The whole result array, as one function of the eleven argument arrays. -/
def attention (q k v : Act) (Wq : Mat) (bq : Row) (Wk : Mat) (bk : Row) (Wv : Mat) (bv : Row) (Wo : Mat) (bo : Row) : Act :=
  fun i => result q k v Wq bq Wk bk Wv bv Wo bo (i 0) (i 1) (i 2)

/-- Key row 512·j + s' of the 2048, for the j-th run of 512 rows. -/
abbrev keyRow (j : Fin 4) (s' : Fin 512) : Fin 2048 :=
  ⟨512 * j.val + s'.val, by have := j.isLt; have := s'.isLt; omega⟩

/-- A sum over the 2048 key rows is the sum over the four runs of 512 of each run's sum (any commutative monoid). -/
theorem sum_keyRows {M : Type*} [AddCommMonoid M] (f : Fin 2048 → M) :
    ∑ s : Fin 2048, f s = ∑ j : Fin 4, ∑ s' : Fin 512, f (keyRow j s') := by
  calc ∑ s : Fin 2048, f s
      = ∑ p : Fin 4 × Fin 512, f (finProdFinEquiv (m := 4) (n := 512) p) :=
        (Equiv.sum_comp (finProdFinEquiv (m := 4) (n := 512)) f).symm
    _ = ∑ j : Fin 4, ∑ s' : Fin 512, f (finProdFinEquiv (m := 4) (n := 512) (j, s')) := Fintype.sum_prod_type _
    _ = _ := by
        refine Finset.sum_congr rfl fun j _ => Finset.sum_congr rfl fun s' _ => ?_
        congr 1
        apply Fin.ext
        show s'.val + 512 * j.val = 512 * j.val + s'.val
        omega

/-- The four runs added one after another starting from zero — the order an accumulator takes them in — is that sum. -/
theorem keysum_chunks {M : Type*} [AddCommMonoid M] (f : Fin 2048 → M) :
    (((0 + ∑ s' : Fin 512, f (keyRow 0 s')) + ∑ s' : Fin 512, f (keyRow 1 s')) + ∑ s' : Fin 512, f (keyRow 2 s'))
        + ∑ s' : Fin 512, f (keyRow 3 s')
      = ∑ s : Fin 2048, f s := by
  rw [sum_keyRows, Fin.sum_univ_four, zero_add]

end Cert.AttentionSpec

end
-- ==== Proof.PayloadReads.lean ====
/-
  The body's stored values read at an entry, over the extended reals.

  With Q the projected query rows of the point's block (`lin`: x·W + b against the weights as the body is handed
  them), the weight of query row r on a key row s of some array K of projected key rows is the logistic of their scaled
  inner product (`wgt`), and the contribution of one run of 512 key rows to the context of row r is the sum over the run
  of weight times the projected value row (`part`). The body adds the four runs' contributions to a zero block in order
  and applies the output layer. Read at (u, r, d) the stored block is therefore the output layer of the sum over ALL
  2048 key rows — the four runs regrouped into one sum, which on the extended reals is only associativity and
  commutativity of + (`Cert.AttentionSpec.keysum_chunks`): `blockOut_read`. A change of float format is the identity
  here, and the zero word is the extended real zero.
-/
import proofs.«126550_j16844861735386_2_alg».proof.Proof.CaseValues
import proofs.«126550_j16844861735386_2_alg».proof.Proof.MatmulReads
import proofs.«126550_j16844861735386_2_alg».proof.Proof.AttentionSpec
import Idealize.ShloMosaic.Lib.ValueLayout
import Idealize.ShloMosaic.Lib.Pipeline.Value

noncomputable section

namespace Cert.KernelIdeal.PayloadRead

open Cert.KernelIdeal Cert.KernelIdeal.Gen Cert.KernelIdeal.CaseValue Cert.KernelIdeal.MatmulRead
open Idealize.ShloMosaic Idealize.ShloMosaic.ValueIdx
open Cert.AttentionSpec (scale keyRow keysum_chunks)

/-- A [1, N, 257] block, an [N, M] array and a [257] row over the extended reals. -/
abbrev Blk (N : Nat) := (⟨3, ![1, N, 257]⟩ : Shape).Idx → EReal
abbrev Arr (N M : Nat) := (⟨2, ![N, M]⟩ : Shape).Idx → EReal
abbrev Row := (⟨1, ![257]⟩ : Shape).Idx → EReal

/-- The linear layer x·W + b of a block's row r at feature e (W as handed to the body: entry (d, e)). -/
def lin {N : Nat} (X : Blk N) (W : Arr 257 257) (b : Row) (r : Fin N) (e : Fin 257) : EReal :=
  (∑ d : Fin 257, X (ix3 (0 : Fin 1) r d) * W (ix2 d e)) + b (ix1 e)

/-- The weight of query row r of Q on key row s of K: the logistic of the scaled inner product. -/
def wgt {N : Nat} (Q : Arr 512 257) (K : Arr N 257) (r : Fin 512) (s : Fin N) : EReal :=
  Ideal.logistic ((∑ e : Fin 257, Q (ix2 r e) * K (ix2 s e)) * scale)

/-- One run of 512 key rows' contribution to the context of query row r at feature e. -/
def part (Q Kc Vc : Arr 512 257) (r : Fin 512) (e : Fin 257) : EReal :=
  ∑ s : Fin 512, wgt Q Kc r s * Vc (ix2 s e)

theorem logistic_apply {s : Shape} {φ : FTy} (x : FVec Ideal s φ) (i : s.Idx) : logistic x i = Ideal.logistic (x i) := rfl

/-! ## The three linear layers -/

theorem keys_read (X : Blk 2048) (W : Arr 257 257) (b : Row) (r : Fin 2048) (e : Fin 257) :
    k0_pay2 (F := Ideal) X W b (ix2 r e) = lin X W b r e := by
  unfold k0_pay2 lin
  simp only [shapeCast_self, truncf_apply, addf_apply, projKV_apply, broadcastTo_1b_ab_apply, shapeCast_a_1a_apply,
    shapeCast_1ab_ab_apply]

theorem values_read (X : Blk 2048) (W : Arr 257 257) (b : Row) (r : Fin 2048) (e : Fin 257) :
    k0_pay3 (F := Ideal) X W b (ix2 r e) = lin X W b r e := by
  unfold k0_pay3 lin
  simp only [shapeCast_self, truncf_apply, addf_apply, projKV_apply, broadcastTo_1b_ab_apply, shapeCast_a_1a_apply,
    shapeCast_1ab_ab_apply]

theorem queries_read (X : Blk 512) (W : Arr 257 257) (b : Row) (r : Fin 512) (e : Fin 257) :
    k0_pay4 (F := Ideal) X W b (ix2 r e) = lin X W b r e := by
  unfold k0_pay4 lin
  simp only [shapeCast_self, truncf_apply, addf_apply, projQO_apply, broadcastTo_1b_ab_apply, shapeCast_a_1a_apply,
    shapeCast_1ab_ab_apply]

/-! ## The runs of key rows -/

/-- Row s of the run starting at row o is row o + s of the array. -/
theorem rowsAt_read (o : Nat) (h : o + 512 ≤ 2048) (X : Arr 2048 257) (s : Fin 512) (e : Fin 257) :
    rowsAt (F := Ideal) o h X (ix2 s e) = X (ix2 (⟨o + s.val, by have := s.isLt; omega⟩ : Fin 2048) e) := by
  unfold rowsAt
  show X ((Rect.unit (s := S2048x257) ![o, 0] S512x257.size (rows_inb o h)).idx (ix2 s e)) = _
  refine congrArg X (funext fun a => Fin.ext ?_)
  match a with
  | ⟨0, _⟩ => show o + 1 * s.val = o + s.val; omega
  | ⟨1, _⟩ => show 0 + 1 * e.val = e.val; omega

/-- The first run, added to the zero block. -/
theorem first_run_read (X : Blk 512) (W : Arr 257 257) (b : Row) (Kc Vc : Arr 512 257) (r : Fin 512) (e : Fin 257) :
    k0_pay5 (F := Ideal) X W b Kc Vc (ix2 r e) = 0 + part (k0_pay4 (F := Ideal) X W b) Kc Vc r e := by
  unfold k0_pay5 part wgt
  simp only [addf_apply, weighted_apply, inner_apply, truncf_apply, logistic_apply, mulf_apply, broadcast_apply]
  rw [show (Scalar.ofBits (F := Ideal) .f32 0x00000000#32 : EReal) = 0 from Ideal.ofBits_zero_f32]
  rfl

/-- The second run's inner products. -/
theorem second_scores_read (X : Blk 512) (W : Arr 257 257) (b : Row) (Kc : Arr 512 257) (r s : Fin 512) :
    k0_pay6 (F := Ideal) X W b Kc (ix2 r s) = ∑ e : Fin 257, k0_pay4 (F := Ideal) X W b (ix2 r e) * Kc (ix2 s e) := by
  unfold k0_pay6
  exact inner_apply _ _ r s

/-- The remaining runs, the accumulation and the output layer's product. -/
theorem tail_read (Q : Arr 512 257) (acc V1 : Arr 512 257) (S1 : Arr 512 512) (K2 V2 K3 V3 : Arr 512 257)
    (Wo : Arr 257 257) (r : Fin 512) (d : Fin 257) :
    k0_pay7 (F := Ideal) Q acc V1 S1 K2 V2 K3 V3 Wo (ix2 r d)
      = ∑ e : Fin 257,
          (((acc (ix2 r e) + ∑ s : Fin 512, Ideal.logistic (S1 (ix2 r s) * scale) * V1 (ix2 s e)) + part Q K2 V2 r e)
            + part Q K3 V3 r e) * Wo (ix2 e d) := by
  unfold k0_pay7 part wgt
  simp only [shapeCast_self, projQO_apply, truncf_apply, addf_apply, weighted_apply, inner_apply, logistic_apply, mulf_apply,
    broadcast_apply]
  rfl

theorem bias_read (b : Row) (r : Fin 512) (d : Fin 257) : k0_pay8 (F := Ideal) b (ix2 r d) = b (ix1 d) := by
  unfold k0_pay8
  simp only [broadcastTo_1b_ab_apply, shapeCast_a_1a_apply]

theorem store_read (A B : Arr 512 257) (u : Fin 1) (r : Fin 512) (d : Fin 257) :
    k0_pay1 (F := Ideal) A B (ix3 u r d) = A (ix2 r d) + B (ix2 r d) := by
  unfold k0_pay1
  simp only [shapeCast_ab_1ab_apply, addf_apply]

/-! ## The stored block -/

/-- The context of query row r over ALL key rows of K and V, at feature e. -/
def ctxAll (Q : Arr 512 257) (K V : Arr 2048 257) (r : Fin 512) (e : Fin 257) : EReal :=
  ∑ s : Fin 2048, wgt Q K r s * V (ix2 s e)

/-- One run's contribution, with the run's rows named in the whole arrays. -/
theorem part_rowsAt (Q : Arr 512 257) (K V : Arr 2048 257) (j : Fin 4) (o : Nat) (h : o + 512 ≤ 2048) (ho : o = 512 * j.val)
    (r : Fin 512) (e : Fin 257) :
    part Q (rowsAt (F := Ideal) o h K) (rowsAt (F := Ideal) o h V) r e
      = ∑ s' : Fin 512, wgt Q K r (keyRow j s') * V (ix2 (keyRow j s') e) := by
  subst ho
  unfold part wgt
  refine Finset.sum_congr rfl fun s' _ => ?_
  rw [rowsAt_read]
  refine congrArg (fun z => Ideal.logistic (z * scale) * _) (Finset.sum_congr rfl fun e' _ => ?_)
  rw [rowsAt_read]

/-- THE STORED BLOCK at (u, r, d): the output layer of the context over all 2048 key rows. -/
theorem blockOut_read (x0 : Blk 512) (x3 : Arr 257 257) (x4 : Row) (K V : Arr 2048 257) (x9 : Arr 257 257) (x10 : Row)
    (u : Fin 1) (r : Fin 512) (d : Fin 257) :
    blockOut (F := Ideal) x0 x3 x4 K V x9 x10 (ix3 u r d)
      = (∑ e : Fin 257, ctxAll (fun i => lin x0 x3 x4 (i 0) (i 1)) K V r e * x9 (ix2 e d)) + x10 (ix1 d) := by
  have hQ : (k0_pay4 (F := Ideal) x0 x3 x4 : Arr 512 257) = fun i => lin x0 x3 x4 (i 0) (i 1) :=
    funext fun i => (congrArg (k0_pay4 (F := Ideal) x0 x3 x4) (eq_ix2 i)).trans (queries_read x0 x3 x4 (i 0) (i 1))
  unfold blockOut
  rw [store_read, bias_read, tail_read]
  refine congrArg (· + x10 (ix1 d)) (Finset.sum_congr rfl fun e _ => ?_)
  refine congrArg (· * x9 (ix2 e d)) ?_
  rw [first_run_read]
  have h1 : ∑ s : Fin 512, Ideal.logistic (k0_pay6 (F := Ideal) x0 x3 x4 (rowsAt (F := Ideal) 512 (by decide) K) (ix2 r s) * scale)
        * rowsAt (F := Ideal) 512 (by decide) V (ix2 s e)
      = part (k0_pay4 (F := Ideal) x0 x3 x4) (rowsAt (F := Ideal) 512 (by decide) K) (rowsAt (F := Ideal) 512 (by decide) V) r e := by
    unfold part wgt
    exact Finset.sum_congr rfl fun s _ => by rw [second_scores_read]
  rw [h1, part_rowsAt _ K V 0 0 (by decide) rfl, part_rowsAt _ K V 1 512 (by decide) rfl,
    part_rowsAt _ K V 2 1024 (by decide) rfl, part_rowsAt _ K V 3 1536 (by decide) rfl, hQ]
  exact keysum_chunks (fun s => wgt (fun i => lin x0 x3 x4 (i 0) (i 1)) K r s * V (ix2 s e))

end Cert.KernelIdeal.PayloadRead

end
-- ==== Proof.BlockReads.lean ====
/-
  Where each window's block sits in the argument arrays, at a symbolic grid point.

  The grid has 32 points, 8 batches by 4 runs of 512 query rows, the run moving fastest: point t is batch t / 4 and
  run t % 4. A block's coordinate on an axis is always its block index times the block's extent plus the coordinate
  inside the block, so once the index maps are known at every point each block read is a read of the array:

    the query block at (u, r, d) is q at (t / 4, 512 (t % 4) + r, d);
    the key and value blocks at (u, s, d) are k and v at (t / 4, s, d): all 2048 rows of the batch;
    the four bias windows are the whole rows bq, bk, bv, bo;
    the four weight windows are whole matrices that the host wrote before the region, each the transpose of an
      argument converted to the narrower format; over the extended reals that conversion is the identity, so the
      window at (d, e) is the argument matrix at (e, d);
    the output block at (u, r, d) is the output array at (t / 4, 512 (t % 4) + r, d), and the 32 output blocks
      cover the array: the index (n, r, d) is in the block of point 4 n + r / 512.
-/
import proofs.«126550_j16844861735386_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockRead

open Cert.KernelIdeal Cert.KernelIdeal.Gen Idealize.ShloMosaic Idealize.ShloMosaic.TcCoe Idealize.SL.Sem
open Idealize.ShloMosaic.ValueIdx

/-! ## The grid -/

/-- The grid has 32 points. -/
theorem point_lt (t : Fin cfg0.N) : t.val < 32 := lt_of_lt_of_eq t.isLt (show cfg0.N = 32 from N_0)

/-- The batch of grid point t: the grid is 8 batches by 4 runs of query rows, the run moving fastest. -/
def bn (t : Fin cfg0.N) : Fin 8 := ⟨t.val / 4, by have := point_lt t; omega⟩

/-- Row r of the run of 512 query rows that grid point t works on, as a row of the 2048. -/
def qrow (t : Fin cfg0.N) (r : Fin 512) : Fin 2048 := ⟨512 * (t.val % 4) + r.val, by have := r.isLt; omega⟩

/-! ## The index maps, decided once over the 32 points -/

/-- The query window's block index at point t is (t / 4, t % 4, 0). -/
theorem index_q : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The key window's block index at point t is (t / 4, 0, 0): all 2048 key rows of the batch. -/
theorem index_k : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- The value window's block index at point t is (t / 4, 0, 0). -/
theorem index_v : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- The four weight windows and the four bias windows are whole arrays: their block index is zero at every point. -/
theorem index_w : ∀ t : Fin cfg0.N,
    (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_9.index t (0 : Fin 2) = 0 ∧ win0_9.index t (1 : Fin 2) = 0) :=
  (by decide +kernel : ∀ t : Fin grid0.N, _)

theorem index_b : ∀ t : Fin cfg0.N, win0_4.index t (0 : Fin 1) = 0 ∧ win0_6.index t (0 : Fin 1) = 0
    ∧ win0_8.index t (0 : Fin 1) = 0 ∧ win0_10.index t (0 : Fin 1) = 0 :=
  (by decide +kernel : ∀ t : Fin grid0.N, _)

/-- The output window's block index at point t is (t / 4, t % 4, 0), as the query window's. -/
theorem index_out : ∀ t : Fin cfg0.N, win0_11.index t (0 : Fin 3) = t.val / 4 ∧ win0_11.index t (1 : Fin 3) = t.val % 4
    ∧ win0_11.index t (2 : Fin 3) = 0 :=
  (by decide +kernel : ∀ t : Fin grid0.N, _)

/-- Within a batch's four points the batch does not change: if n + 1 is not a multiple of 4, points n and n + 1
    have the same batch. -/
theorem bn_succ (n : Nat) (h : n + 1 < cfg0.N) (h4 : ¬(n + 1) % 4 = 0) :
    bn ⟨n + 1, h⟩ = bn ⟨n, Nat.lt_of_succ_lt h⟩ := by
  apply Fin.ext
  show (n + 1) / 4 = n / 4
  omega

/-! ## The input blocks, for any float values -/

section
variable {F : FTy → Type} [FloatOps F]
variable (m : (ℓ : Loc nD τ sig) → Buf (Elt F) ℓ)

/-- The query block of point t at (u, r, d) is q at batch t / 4, row 512 (t % 4) + r, feature d. -/
theorem q_block (c : Dev nD) (t : Fin cfg0.N) (u : Fin 1) (r : Fin 512) (d : Fin 257) :
    (iblk m c 0 t : Vec F S1x512x257 .f32) (ix3 u r d)
      = m ((c : Thread nD τ).loc main_arg0) (ix3 (bn t) (qrow t r) d) := by
  obtain ⟨e0, e1, e2⟩ := index_q t
  unfold iblk
  rw [View.read_apply]
  show V m c main_arg0 (((cfg0.win 0).blk t).view.emb (ix3 u r d)) = m (c.tc.loc main_arg0) (ix3 (bn t) (qrow t r) d)
  rw [V_main_arg0]
  refine congrArg (m (c.tc.loc main_arg0)) ?_
  funext a
  apply Fin.ext
  match a with
  | ⟨0, _⟩ => show win0_0.index t (0 : Fin 3) * 1 + 1 * u.val = t.val / 4; have := u.isLt; omega
  | ⟨1, _⟩ => show win0_0.index t (1 : Fin 3) * 512 + 1 * r.val = 512 * (t.val % 4) + r.val; omega
  | ⟨2, _⟩ => show win0_0.index t (2 : Fin 3) * 257 + 1 * d.val = d.val; omega

/-- The key block of point t at (u, s, d) is k at batch t / 4, row s, feature d. -/
theorem k_block (c : Dev nD) (t : Fin cfg0.N) (u : Fin 1) (s : Fin 2048) (d : Fin 257) :
    (iblk m c 1 t : Vec F S1x2048x257 .f32) (ix3 u s d)
      = m ((c : Thread nD τ).loc main_arg1) (ix3 (bn t) s d) := by
  obtain ⟨e0, e1, e2⟩ := index_k t
  unfold iblk
  rw [View.read_apply]
  show V m c main_arg1 (((cfg0.win 1).blk t).view.emb (ix3 u s d)) = m (c.tc.loc main_arg1) (ix3 (bn t) s d)
  rw [V_main_arg1]
  refine congrArg (m (c.tc.loc main_arg1)) ?_
  funext a
  apply Fin.ext
  match a with
  | ⟨0, _⟩ => show win0_1.index t (0 : Fin 3) * 1 + 1 * u.val = t.val / 4; have := u.isLt; omega
  | ⟨1, _⟩ => show win0_1.index t (1 : Fin 3) * 2048 + 1 * s.val = s.val; omega
  | ⟨2, _⟩ => show win0_1.index t (2 : Fin 3) * 257 + 1 * d.val = d.val; omega

/-- The value block of point t at (u, s, d) is v at batch t / 4, row s, feature d. -/
theorem v_block (c : Dev nD) (t : Fin cfg0.N) (u : Fin 1) (s : Fin 2048) (d : Fin 257) :
    (iblk m c 2 t : Vec F S1x2048x257 .f32) (ix3 u s d)
      = m ((c : Thread nD τ).loc main_arg2) (ix3 (bn t) s d) := by
  obtain ⟨e0, e1, e2⟩ := index_v t
  unfold iblk
  rw [View.read_apply]
  show V m c main_arg2 (((cfg0.win 2).blk t).view.emb (ix3 u s d)) = m (c.tc.loc main_arg2) (ix3 (bn t) s d)
  rw [V_main_arg2]
  refine congrArg (m (c.tc.loc main_arg2)) ?_
  funext a
  apply Fin.ext
  match a with
  | ⟨0, _⟩ => show win0_2.index t (0 : Fin 3) * 1 + 1 * u.val = t.val / 4; have := u.isLt; omega
  | ⟨1, _⟩ => show win0_2.index t (1 : Fin 3) * 2048 + 1 * s.val = s.val; omega
  | ⟨2, _⟩ => show win0_2.index t (2 : Fin 3) * 257 + 1 * d.val = d.val; omega

/-- The query bias window is the whole row bq. -/
theorem bq_block (c : Dev nD) (t : Fin cfg0.N) (e : Fin 257) :
    (iblk m c 4 t : Vec F S257 .f32) (ix1 e) = m ((c : Thread nD τ).loc main_arg4) (ix1 e) := by
  obtain ⟨e4, e6, e8, e10⟩ := index_b t
  unfold iblk
  rw [View.read_apply]
  show V m c main_arg4 (((cfg0.win 4).blk t).view.emb (ix1 e)) = m (c.tc.loc main_arg4) (ix1 e)
  rw [V_main_arg4]
  refine congrArg (m (c.tc.loc main_arg4)) ?_
  funext a
  apply Fin.ext
  match a with
  | ⟨0, _⟩ => show win0_4.index t (0 : Fin 1) * 257 + 1 * e.val = e.val; omega

/-- The key bias window is the whole row bk. -/
theorem bk_block (c : Dev nD) (t : Fin cfg0.N) (e : Fin 257) :
    (iblk m c 6 t : Vec F S257 .f32) (ix1 e) = m ((c : Thread nD τ).loc main_arg6) (ix1 e) := by
  obtain ⟨e4, e6, e8, e10⟩ := index_b t
  unfold iblk
  rw [View.read_apply]
  show V m c main_arg6 (((cfg0.win 6).blk t).view.emb (ix1 e)) = m (c.tc.loc main_arg6) (ix1 e)
  rw [V_main_arg6]
  refine congrArg (m (c.tc.loc main_arg6)) ?_
  funext a
  apply Fin.ext
  match a with
  | ⟨0, _⟩ => show win0_6.index t (0 : Fin 1) * 257 + 1 * e.val = e.val; omega

/-- The value bias window is the whole row bv. -/
theorem bv_block (c : Dev nD) (t : Fin cfg0.N) (e : Fin 257) :
    (iblk m c 8 t : Vec F S257 .f32) (ix1 e) = m ((c : Thread nD τ).loc main_arg8) (ix1 e) := by
  obtain ⟨e4, e6, e8, e10⟩ := index_b t
  unfold iblk
  rw [View.read_apply]
  show V m c main_arg8 (((cfg0.win 8).blk t).view.emb (ix1 e)) = m (c.tc.loc main_arg8) (ix1 e)
  rw [V_main_arg8]
  refine congrArg (m (c.tc.loc main_arg8)) ?_
  funext a
  apply Fin.ext
  match a with
  | ⟨0, _⟩ => show win0_8.index t (0 : Fin 1) * 257 + 1 * e.val = e.val; omega

/-- The output bias window is the whole row bo. -/
theorem bo_block (c : Dev nD) (t : Fin cfg0.N) (e : Fin 257) :
    (iblk m c 10 t : Vec F S257 .f32) (ix1 e) = m ((c : Thread nD τ).loc main_arg10) (ix1 e) := by
  obtain ⟨e4, e6, e8, e10⟩ := index_b t
  unfold iblk
  rw [View.read_apply]
  show V m c main_arg10 (((cfg0.win 10).blk t).view.emb (ix1 e)) = m (c.tc.loc main_arg10) (ix1 e)
  rw [V_main_arg10]
  refine congrArg (m (c.tc.loc main_arg10)) ?_
  funext a
  apply Fin.ext
  match a with
  | ⟨0, _⟩ => show win0_10.index t (0 : Fin 1) * 257 + 1 * e.val = e.val; omega

/-! ## The output block and its cover -/

/-- Any array [8, 2048, 257] read through the output window's block of point t, at (u, r, d), is the array at batch
    t / 4, row 512 (t % 4) + r, feature d. -/
theorem out_block (t : Fin cfg0.N) (G : S8x2048x257.Idx → Elt F .f32) (u : Fin 1) (r : Fin 512) (d : Fin 257) :
    ((cfg0.win 11).blk t).view.read (Elt F) G (ix3 u r d) = G (ix3 (bn t) (qrow t r) d) := by
  obtain ⟨e0, e1, e2⟩ := index_out t
  rw [View.read_apply]
  show G (((cfg0.win 11).blk t).view.emb (ix3 u r d)) = G (ix3 (bn t) (qrow t r) d)
  refine congrArg G ?_
  funext a
  apply Fin.ext
  match a with
  | ⟨0, _⟩ => show win0_11.index t (0 : Fin 3) * 1 + 1 * u.val = t.val / 4; have := u.isLt; omega
  | ⟨1, _⟩ => show win0_11.index t (1 : Fin 3) * 512 + 1 * r.val = 512 * (t.val % 4) + r.val; omega
  | ⟨2, _⟩ => show win0_11.index t (2 : Fin 3) * 257 + 1 * d.val = d.val; omega

end

/-! ## The weight windows, over the extended reals -/

/-- A weight matrix [257, 257] at either width, over the extended reals. -/
abbrev MatWide := (⟨S257x257, .f32⟩ : BufTy).Contents (Elt Ideal)
abbrev MatNarrow := (⟨S257x257, .bf16⟩ : BufTy).Contents (Elt Ideal)

/-- What the host does to a weight matrix before the region: transpose it, then convert it to the narrower format. -/
def hostW (W : MatWide) : MatNarrow :=
  truncf (F := Ideal) (φ := .f32) .bf16 (transpose S257x257 [1, 0] W Facts₀.transposes_S257x257_S257x257_1_0) Facts₀.bitsLt_bf16_f32

/-- Over the extended reals the conversion is the identity, so the prepared matrix at (d, e) is W at (e, d). -/
theorem hostW_apply (W : MatWide) (d e : Fin 257) : hostW W (ix2 d e) = W (ix2 e d) :=
  transpose_ix2_apply W Facts₀.transposes_S257x257_S257x257_1_0 d e

section
variable (m : (ℓ : Loc nD τ sig) → Buf (Elt Ideal) ℓ)

/-- The array the query weight window reads, as the region finds it, is the host's preparation of Wq. -/
theorem host_wq (c : Dev nD) : V m c main_v1 = hostW (m ((c : Thread nD τ).loc main_arg3)) := by
  dsimp only [Gen.V, Gen.hostOps0]
  after_results
  rfl

/-- The query weight window at (d, e) is Wq at (e, d): the kernel is handed the transposed matrix. -/
theorem wq_block (c : Dev nD) (t : Fin cfg0.N) (d e : Fin 257) :
    (iblk m c 3 t : Vec Ideal S257x257 .bf16) (ix2 d e) = m ((c : Thread nD τ).loc main_arg3) (ix2 e d) := by
  obtain ⟨⟨e3a, e3b⟩, ⟨e5a, e5b⟩, ⟨e7a, e7b⟩, ⟨e9a, e9b⟩⟩ := index_w t
  unfold iblk
  rw [View.read_apply]
  show V m c main_v1 (((cfg0.win 3).blk t).view.emb (ix2 d e)) = m (c.tc.loc main_arg3) (ix2 e d)
  have hemb : ((cfg0.win 3).blk t).view.emb (ix2 d e) = ix2 d e := by
    funext a
    apply Fin.ext
    match a with
    | ⟨0, _⟩ => show win0_3.index t (0 : Fin 2) * 257 + 1 * d.val = d.val; omega
    | ⟨1, _⟩ => show win0_3.index t (1 : Fin 2) * 257 + 1 * e.val = e.val; omega
  rw [hemb]
  exact (congrFun (host_wq m c) (ix2 d e)).trans (hostW_apply _ d e)

/-- The array the key weight window reads, as the region finds it, is the host's preparation of Wk. -/
theorem host_wk (c : Dev nD) : V m c main_v3 = hostW (m ((c : Thread nD τ).loc main_arg5)) := by
  dsimp only [Gen.V, Gen.hostOps0]
  after_results
  rfl

/-- The key weight window at (d, e) is Wk at (e, d): the kernel is handed the transposed matrix. -/
theorem wk_block (c : Dev nD) (t : Fin cfg0.N) (d e : Fin 257) :
    (iblk m c 5 t : Vec Ideal S257x257 .bf16) (ix2 d e) = m ((c : Thread nD τ).loc main_arg5) (ix2 e d) := by
  obtain ⟨⟨e3a, e3b⟩, ⟨e5a, e5b⟩, ⟨e7a, e7b⟩, ⟨e9a, e9b⟩⟩ := index_w t
  unfold iblk
  rw [View.read_apply]
  show V m c main_v3 (((cfg0.win 5).blk t).view.emb (ix2 d e)) = m (c.tc.loc main_arg5) (ix2 e d)
  have hemb : ((cfg0.win 5).blk t).view.emb (ix2 d e) = ix2 d e := by
    funext a
    apply Fin.ext
    match a with
    | ⟨0, _⟩ => show win0_5.index t (0 : Fin 2) * 257 + 1 * d.val = d.val; omega
    | ⟨1, _⟩ => show win0_5.index t (1 : Fin 2) * 257 + 1 * e.val = e.val; omega
  rw [hemb]
  exact (congrFun (host_wk m c) (ix2 d e)).trans (hostW_apply _ d e)

/-- The array the value weight window reads, as the region finds it, is the host's preparation of Wv. -/
theorem host_wv (c : Dev nD) : V m c main_v5 = hostW (m ((c : Thread nD τ).loc main_arg7)) := by
  dsimp only [Gen.V, Gen.hostOps0]
  after_results
  rfl

/-- The value weight window at (d, e) is Wv at (e, d): the kernel is handed the transposed matrix. -/
theorem wv_block (c : Dev nD) (t : Fin cfg0.N) (d e : Fin 257) :
    (iblk m c 7 t : Vec Ideal S257x257 .bf16) (ix2 d e) = m ((c : Thread nD τ).loc main_arg7) (ix2 e d) := by
  obtain ⟨⟨e3a, e3b⟩, ⟨e5a, e5b⟩, ⟨e7a, e7b⟩, ⟨e9a, e9b⟩⟩ := index_w t
  unfold iblk
  rw [View.read_apply]
  show V m c main_v5 (((cfg0.win 7).blk t).view.emb (ix2 d e)) = m (c.tc.loc main_arg7) (ix2 e d)
  have hemb : ((cfg0.win 7).blk t).view.emb (ix2 d e) = ix2 d e := by
    funext a
    apply Fin.ext
    match a with
    | ⟨0, _⟩ => show win0_7.index t (0 : Fin 2) * 257 + 1 * d.val = d.val; omega
    | ⟨1, _⟩ => show win0_7.index t (1 : Fin 2) * 257 + 1 * e.val = e.val; omega
  rw [hemb]
  exact (congrFun (host_wv m c) (ix2 d e)).trans (hostW_apply _ d e)

/-- The array the output weight window reads, as the region finds it, is the host's preparation of Wo. -/
theorem host_wo (c : Dev nD) : V m c main_v7 = hostW (m ((c : Thread nD τ).loc main_arg9)) := by
  dsimp only [Gen.V, Gen.hostOps0]
  after_results
  rfl

/-- The output weight window at (d, e) is Wo at (e, d): the kernel is handed the transposed matrix. -/
theorem wo_block (c : Dev nD) (t : Fin cfg0.N) (d e : Fin 257) :
    (iblk m c 9 t : Vec Ideal S257x257 .bf16) (ix2 d e) = m ((c : Thread nD τ).loc main_arg9) (ix2 e d) := by
  obtain ⟨⟨e3a, e3b⟩, ⟨e5a, e5b⟩, ⟨e7a, e7b⟩, ⟨e9a, e9b⟩⟩ := index_w t
  unfold iblk
  rw [View.read_apply]
  show V m c main_v7 (((cfg0.win 9).blk t).view.emb (ix2 d e)) = m (c.tc.loc main_arg9) (ix2 e d)
  have hemb : ((cfg0.win 9).blk t).view.emb (ix2 d e) = ix2 d e := by
    funext a
    apply Fin.ext
    match a with
    | ⟨0, _⟩ => show win0_9.index t (0 : Fin 2) * 257 + 1 * d.val = d.val; omega
    | ⟨1, _⟩ => show win0_9.index t (1 : Fin 2) * 257 + 1 * e.val = e.val; omega
  rw [hemb]
  exact (congrFun (host_wo m c) (ix2 d e)).trans (hostW_apply _ d e)

end

/-! ## The output blocks cover the array -/

/-- An index of the output array is in point t's block iff each coordinate is in the block's range on its axis. -/
theorem mem_out_block (t : Fin cfg0.N) (i : S8x2048x257.Idx) :
    i ∈ ((cfg0.win 11).blk t).view.set ↔ ∀ a : Fin 3, win0_11.index t a * S1x512x257.size a ≤ (i a).val
      ∧ (i a).val < win0_11.index t a * S1x512x257.size a + S1x512x257.size a := by
  show i ∈ ((View.whole main_v8).slice (win0_11.rect t)).set ↔ _
  rw [View.set_slice_whole, Rect.mem_set_unit]
  exact Iff.rfl

/-- Every index (n, r, d) of the output array is in the block of a point that writes back: point 4 n + r / 512. -/
theorem out_cover : ∀ i : S8x2048x257.Idx, ∃ t : Fin cfg0.N, (cfg0.win 11).flush t = true
    ∧ i ∈ ((cfg0.win 11).blk t).view.set := by
  intro i
  have h0 : (i 0).val < 8 := (i 0).isLt
  have h1 : (i 1).val < 2048 := (i 1).isLt
  have h2 : (i 2).val < 257 := (i 2).isLt
  have hN : cfg0.N = 32 := N_0
  obtain ⟨t, ht⟩ : ∃ t : Fin cfg0.N, t.val = 4 * (i 0).val + (i 1).val / 512 := ⟨⟨_, by omega⟩, rfl⟩
  obtain ⟨e0, e1, e2⟩ := index_out t
  refine ⟨t, flush0_11 t, ?_⟩
  rw [mem_out_block]
  intro a
  match a with
  | ⟨0, _⟩ =>
    show win0_11.index t (0 : Fin 3) * 1 ≤ (i 0).val ∧ (i 0).val < win0_11.index t (0 : Fin 3) * 1 + 1
    omega
  | ⟨1, _⟩ =>
    show win0_11.index t (1 : Fin 3) * 512 ≤ (i 1).val ∧ (i 1).val < win0_11.index t (1 : Fin 3) * 512 + 512
    omega
  | ⟨2, _⟩ =>
    show win0_11.index t (2 : Fin 3) * 257 ≤ (i 2).val ∧ (i 2).val < win0_11.index t (2 : Fin 3) * 257 + 257
    omega

end Cert.KernelIdeal.BlockRead

end
-- ==== Proof.PointValues.lean ====
/-
  What each grid point computes, in terms of the eleven argument arrays.

  Point t handles batch n = t / 4 and query rows 512·(t mod 4) … 512·(t mod 4) + 511. Its input blocks are the
  corresponding pieces of q, k, v and the whole weights and biases (the weights transposed, as the host hands them
  over), so the three linear layers the body computes from its blocks are the specification's projections at batch n
  (`keys_at`, `values_at`, `queries_at`). The two scratch arrays are filled at the first point of a batch and kept
  until its last; since all four points of a batch share n, after ANY point they hold the batch's key and value
  projections (`scratch_at`, by induction on the point). Hence the block a point stores is the specification's result
  on the point's rows (`out_at`).
-/
import proofs.«126550_j16844861735386_2_alg».proof.Proof.PayloadReads
import proofs.«126550_j16844861735386_2_alg».proof.Proof.BlockReads
import proofs.«126550_j16844861735386_2_alg».proof.Proof.Gen.KernelIdeal.Value

set_option maxRecDepth 16384

noncomputable section

namespace Cert.KernelIdeal.PointValue

open Cert.KernelIdeal Cert.KernelIdeal.Gen Cert.KernelIdeal.CaseValue Cert.KernelIdeal.PayloadRead Cert.KernelIdeal.BlockRead
open Idealize.ShloMosaic Idealize.ShloMosaic.TcCoe Idealize.ShloMosaic.ValueIdx Idealize.SL.Sem
open Cert.AttentionSpec (Act Mat proj weight context result attention scale)

variable (m : (ℓ : Loc nD τ sig) → Buf (Elt Ideal) ℓ) (c : Dev nD)

/-- The eleven argument arrays as launched, over the extended reals. -/
def aQ : Act := m ((c : Thread nD τ).loc main_arg0)
def aK : Act := m ((c : Thread nD τ).loc main_arg1)
def aV : Act := m ((c : Thread nD τ).loc main_arg2)
def wQ : Mat := m ((c : Thread nD τ).loc main_arg3)
def bQ : Cert.AttentionSpec.Row := m ((c : Thread nD τ).loc main_arg4)
def wK : Mat := m ((c : Thread nD τ).loc main_arg5)
def bK : Cert.AttentionSpec.Row := m ((c : Thread nD τ).loc main_arg6)
def wV : Mat := m ((c : Thread nD τ).loc main_arg7)
def bV : Cert.AttentionSpec.Row := m ((c : Thread nD τ).loc main_arg8)
def wO : Mat := m ((c : Thread nD τ).loc main_arg9)
def bO : Cert.AttentionSpec.Row := m ((c : Thread nD τ).loc main_arg10)

/-- The specification's result array of the launched arguments. -/
def spec : Act := attention (aQ m c) (aK m c) (aV m c) (wQ m c) (bQ m c) (wK m c) (bK m c) (wV m c) (bV m c) (wO m c) (bO m c)

/-! ## The three linear layers at a point -/

theorem keys_at (t : Fin cfg0.N) (s : Fin 2048) (e : Fin 257) :
    k0_pay2 (F := Ideal) (iblk m c 1 t) (iblk m c 5 t) (iblk m c 6 t) (ix2 s e) = proj (aK m c) (wK m c) (bK m c) (bn t) s e := by
  refine (keys_read (iblk m c 1 t) (iblk m c 5 t) (iblk m c 6 t) s e).trans ?_
  unfold lin proj
  exact congrArg₂ (· + ·)
    (Finset.sum_congr rfl fun d _ => congrArg₂ (· * ·) (k_block m c t 0 s d) (wk_block m c t d e)) (bk_block m c t e)

theorem values_at (t : Fin cfg0.N) (s : Fin 2048) (e : Fin 257) :
    k0_pay3 (F := Ideal) (iblk m c 2 t) (iblk m c 7 t) (iblk m c 8 t) (ix2 s e) = proj (aV m c) (wV m c) (bV m c) (bn t) s e := by
  refine (values_read (iblk m c 2 t) (iblk m c 7 t) (iblk m c 8 t) s e).trans ?_
  unfold lin proj
  exact congrArg₂ (· + ·)
    (Finset.sum_congr rfl fun d _ => congrArg₂ (· * ·) (v_block m c t 0 s d) (wv_block m c t d e)) (bv_block m c t e)

theorem queries_at (t : Fin cfg0.N) (r : Fin 512) (e : Fin 257) :
    lin (iblk m c 0 t) (iblk m c 3 t) (iblk m c 4 t) r e = proj (aQ m c) (wQ m c) (bQ m c) (bn t) (qrow t r) e := by
  unfold lin proj
  exact congrArg₂ (· + ·)
    (Finset.sum_congr rfl fun d _ => congrArg₂ (· * ·) (q_block m c t 0 r d) (wq_block m c t d e)) (bq_block m c t e)

/-! ## The scratch arrays after each point -/

/-- After point n the scratch arrays hold the key and value projections of batch n / 4. -/
def ScratchOk (n : ℕ) (h : n < cfg0.N) : Prop :=
  ∀ (s : Fin 2048) (e : Fin 257),
    (outsAt0 m c n h).2.1 (ix2 s e) = proj (aK m c) (wK m c) (bK m c) (bn ⟨n, h⟩) s e
    ∧ (outsAt0 m c n h).2.2 (ix2 s e) = proj (aV m c) (wV m c) (bV m c) (bn ⟨n, h⟩) s e

/-- At the first point of a batch the key scratch is filled with the batch's key projections; -/
theorem keys_point (t : Fin cfg0.N) (h0 : t.val % 4 = 0) (s : Fin 2048) (e : Fin 257) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 s e)
      = proj (aK m c) (wK m c) (bK m c) (bn t) s e :=
  (congrFun (keys_filled (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 s e)).trans (keys_at m c t s e)

/-- and the value scratch with its value projections. -/
theorem values_point (t : Fin cfg0.N) (h0 : t.val % 4 = 0) (s : Fin 2048) (e : Fin 257) :
    sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 s e)
      = proj (aV m c) (wV m c) (bV m c) (bn t) s e :=
  (congrFun (values_filled (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 s e)).trans (values_at m c t s e)

/-- At the first point of a batch both are filled afresh. -/
theorem scratch_filled (t : Fin cfg0.N) (h0 : t.val % 4 = 0) : ScratchOk m c t.val t.isLt := by
  intro s e
  rw [outsAt0_A m c t h0]
  dsimp only
  exact ⟨keys_point m c t h0 s e, values_point m c t h0 s e⟩

/-- At a later point of a batch both are what the point before left, and the batch is the same. -/
theorem scratch_kept (n : ℕ) (h : n + 1 < cfg0.N) (h0 : ¬(n + 1) % 4 = 0) (ih : ScratchOk m c n (Nat.lt_of_succ_lt h)) :
    ScratchOk m c (n + 1) h := by
  intro s e
  have hb : bn (⟨n + 1, h⟩ : Fin cfg0.N) = bn ⟨n, Nat.lt_of_succ_lt h⟩ := bn_succ n h h0
  rw [outsAt0_B m c ⟨n + 1, h⟩ h0, hb]
  dsimp only [sout0_B_0, sout0_B_1]
  exact ih s e

theorem scratch_at : ∀ (n : ℕ) (h : n < cfg0.N), ScratchOk m c n h
  | 0, h => scratch_filled m c ⟨0, h⟩ rfl
  | n + 1, h => by
    by_cases h0 : (n + 1) % 4 = 0
    · exact scratch_filled m c ⟨n + 1, h⟩ h0
    · exact scratch_kept m c n h h0 (scratch_at n (Nat.lt_of_succ_lt h))

/-! ## The block a point stores -/

/-- Over scratch contents that are the batch's projections, the stored block is the specification's result on the
    point's rows. -/
theorem block_value (t : Fin cfg0.N) (K V : Arr 2048 257)
    (hK : ∀ (s : Fin 2048) (e : Fin 257), K (ix2 s e) = proj (aK m c) (wK m c) (bK m c) (bn t) s e)
    (hV : ∀ (s : Fin 2048) (e : Fin 257), V (ix2 s e) = proj (aV m c) (wV m c) (bV m c) (bn t) s e)
    (u : Fin 1) (r : Fin 512) (d : Fin 257) :
    blockOut (F := Ideal) (iblk m c 0 t) (iblk m c 3 t) (iblk m c 4 t) K V (iblk m c 9 t) (iblk m c 10 t) (ix3 u r d)
      = spec m c (ix3 (bn t) (qrow t r) d) := by
  refine (blockOut_read (iblk m c 0 t) (iblk m c 3 t) (iblk m c 4 t) K V (iblk m c 9 t) (iblk m c 10 t) u r d).trans ?_
  show _ = result (aQ m c) (aK m c) (aV m c) (wQ m c) (bQ m c) (wK m c) (bK m c) (wV m c) (bV m c) (wO m c) (bO m c) (bn t) (qrow t r) d
  unfold result
  refine congrArg₂ (· + ·) (Finset.sum_congr rfl fun e _ => congrArg₂ (· * ·) ?_ (wo_block m c t e d)) (bo_block m c t d)
  unfold ctxAll context
  refine Finset.sum_congr rfl fun s _ => congrArg₂ (· * ·) ?_ (hV s e)
  unfold wgt weight
  refine congrArg (fun z => Ideal.logistic (z * scale)) (Finset.sum_congr rfl fun e' _ => congrArg₂ (· * ·) ?_ (hK s e'))
  exact queries_at m c t r e'

/-- The block stored at the first point of a batch, over the two projections just filled in. -/
theorem out_point_filled (t : Fin cfg0.N) (h0 : t.val % 4 = 0) (u : Fin 1) (r : Fin 512) (d : Fin 257) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u r d)
      = spec m c (ix3 (bn t) (qrow t r) d) :=
  (congrFun (out_filled (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 u r d)).trans
    (block_value m c t _ _ (fun s e => keys_at m c t s e) (fun s e => values_at m c t s e) u r d)

/-- The block stored at a later point of a batch, over scratch contents that are the batch's projections. -/
theorem out_point_carried (t : Fin cfg0.N) (h0 : ¬t.val % 4 = 0) (K V : Arr 2048 257)
    (hK : ∀ (s : Fin 2048) (e : Fin 257), K (ix2 s e) = proj (aK m c) (wK m c) (bK m c) (bn t) s e)
    (hV : ∀ (s : Fin 2048) (e : Fin 257), V (ix2 s e) = proj (aV m c) (wV m c) (bV m c) (bn t) s e)
    (u : Fin 1) (r : Fin 512) (d : Fin 257) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) K V (ix3 u r d)
      = spec m c (ix3 (bn t) (qrow t r) d) :=
  (congrFun (out_carried (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) K V) (ix3 u r d)).trans
    (block_value m c t K V hK hV u r d)

/-- THE STORED BLOCK of point t at (u, r, d) is the specification at batch t / 4, row 512·(t mod 4) + r, feature d. -/
theorem out_at (t : Fin cfg0.N) (u : Fin 1) (r : Fin 512) (d : Fin 257) :
    (outsAt0 m c t.val t.isLt).1 (ix3 u r d) = spec m c (ix3 (bn t) (qrow t r) d) := by
  by_cases h0 : t.val % 4 = 0
  · rw [outsAt0_A m c t h0]
    dsimp only
    exact out_point_filled m c t h0 u r d
  · rw [outsAt0_B m c t h0]
    dsimp only
    have hN : t.val < 32 := lt_of_lt_of_eq t.isLt (show cfg0.N = 32 from N_0)
    have hb : bn (⟨t.val - 1, Nat.lt_of_le_of_lt (Nat.sub_le _ _) t.isLt⟩ : Fin cfg0.N) = bn t := by
      apply Fin.ext; show (t.val - 1) / 4 = t.val / 4; omega
    have ih := scratch_at m c (t.val - 1) (Nat.lt_of_le_of_lt (Nat.sub_le _ _) t.isLt)
    exact out_point_carried m c t h0 _ _ (fun s e => hb ▸ (ih s e).1) (fun s e => hb ▸ (ih s e).2) u r d

end Cert.KernelIdeal.PointValue

end
-- ==== Proof.KernelValue.lean ====
/-
  The kernel's result array, whole.

  Every grid point writes back its stored block, and the 32 blocks tile the [8, 2048, 257] result array (point t
  covers batch t / 4, rows 512·(t mod 4) … 512·(t mod 4) + 511). What point t writes back is, entry by entry, the
  specification's result at the array index its block places the entry at (`flushed_eq`); so after the run the result
  array IS the specification's result array of the launched arguments (`final`), and the arguments are unchanged
  (`run`).
-/
import proofs.«126550_j16844861735386_2_alg».proof.Proof.PointValues

set_option maxRecDepth 16384

noncomputable section

namespace Cert.KernelIdeal.KernelValue

open Cert.KernelIdeal Cert.KernelIdeal.Gen Cert.KernelIdeal.BlockRead Cert.KernelIdeal.PointValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What point t writes back is its block of the specification's result array. -/
theorem flushed_eq (c : Dev nD) (t : Fin cfg0.N) :
    (dats m 0 c).flushed 11 t = ((cfg0.win 11).blk t).view.read (Elt Ideal) (spec m c) := by
  rw [Cert.KernelIdeal.Value.flushed11]
  refine funext fun (j : S1x512x257.Idx) => ?_
  obtain ⟨u, r, d, rfl⟩ : ∃ (u : Fin 1) (r : Fin 512) (d : Fin 257), j = ix3 u r d := ⟨j 0, j 1, j 2, eq_ix3 j⟩
  refine Eq.trans ?_ (out_block (F := Ideal) t (spec m c) u r d).symm
  show (outsAt0 m c t.val t.isLt).1 (ix3 u r d) = _
  exact out_at m c t u r d

/-- After the run the result array is the specification's result array. -/
theorem final (c : Dev nD) : (dats m 0 c).arrAt 11 cfg0.N = spec m c :=
  (dats m 0 c).arrAt_eq_of_cover 11 (spec m c) (fun t _ => flushed_eq m c t) out_cover

/-- The kernel's run, read: the result at the specification, every argument as launched. -/
theorem run : θ_run defs (onTc (τ := τ) (main (F := Ideal))) ⟨m, fun _ => 0, ρ⟩ fun r => ∀ c : Dev nD,
      r.2.mem ((c : Thread nD τ).loc main_v8) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.KernelValue

end
-- ==== Proof.ReferenceIsSpec.lean ====
/-
  The reference computes the specification.

  The idealized reference program is read one operation at a time: three linear layers x·Wᵀ + b of the activations
  q, k, v; the batched inner products of the projected query and key rows, times the scale word; the logistic of
  those, spelled 1 / (1 + exp (−t)); the batched product of these weights with the projected value rows; and the
  output linear layer. Read at the index (n, r, d), each contraction is a finite sum over its one contracted
  coordinate and each broadcast bias row is read at its feature coordinate, so every stage at explicit coordinates
  is the corresponding function of the specification: the projections are proj, the logistic stage is weight, its
  product with the value rows is context, and the last stage is result. No law of arithmetic is used beyond the
  definition of the logistic and the fact that the word of 1.0 is the extended real one; the scale word is carried
  through unevaluated.
-/
import proofs.«126550_j16844861735386_2_alg».proof.Proof.Gen.ReferenceIdeal.Read
import proofs.«126550_j16844861735386_2_alg».proof.Proof.AttentionSpec
import Idealize.ShloMosaic.Lib.IdealHost

noncomputable section

namespace Cert.ReferenceIdeal.RefValue

open Cert.ReferenceIdeal Cert.ReferenceIdeal.Gen Cert.ReferenceIdeal.Read Cert.AttentionSpec
open Idealize.ShloMosaic Idealize.ShloMosaic.ValueIdx

/-- The three kinds of argument array, as the reference program types them: activations [8, 2048, 257], weight
    matrices [257, 257], bias rows [257], over the extended reals. -/
abbrev ActC := (⟨S8x2048x257, .f32⟩ : BufTy).Contents (Elt Ideal)
abbrev MatC := (⟨S257x257, .f32⟩ : BufTy).Contents (Elt Ideal)
abbrev RowC := (⟨S257, .f32⟩ : BufTy).Contents (Elt Ideal)

/-! ## A linear layer read at (n, r, e) -/

/-- A sum over the contracted coordinate k of x at l k times W at w k, plus b at c, is the linear layer x·Wᵀ + b at
    (n, r, e) once l k = (n, r, k), w k = (e, k) and c = e. -/
theorem layer_read (x : ActC) (W : MatC) (b : RowC) (n : Fin 8) (r : Fin 2048) (e : Fin 257)
    (l : Fin 257 → S8x2048x257.Idx) (w : Fin 257 → S257x257.Idx) (c : S257.Idx)
    (hl : ∀ k, l k = ix3 n r k) (hw : ∀ k, w k = ix2 e k) (hc : c = ix1 e) :
    FloatOps.addf (F := Ideal) (φ := .f32) (∑ k : Fin 257, x (l k) * W (w k)) (b c) = proj x W b n r e := by
  unfold proj
  rw [Ideal.addf_def, hc]
  exact congrArg (· + b (ix1 e)) (Finset.sum_congr rfl fun k _ => by rw [hl k, hw k])

/-- The projected queries: stage 3 of the reference at (n, r, e). -/
theorem proj_q (x0 : ActC) (x3 : MatC) (x4 : RowC) (n : Fin 8) (r : Fin 2048) (e : Fin 257) :
    val_main_v3 (F := Ideal) x0 x3 x4 (ix3 n r e) = proj x0 x3 x4 n r e := by
  rw [val_main_v3_apply, val_main_v0_apply, val_main_v2_apply, val_main_v1_apply]
  exact layer_read x0 x3 x4 n r e _ _ _
    (fun k => funext fun a => by match a with | ⟨0, _⟩ => rfl | ⟨1, _⟩ => rfl | ⟨2, _⟩ => rfl)
    (fun k => funext fun a => by match a with | ⟨0, _⟩ => rfl | ⟨1, _⟩ => rfl)
    (funext fun a => by match a with | ⟨0, _⟩ => rfl)

/-- The projected keys: stage 7 at (n, s, e). -/
theorem proj_k (x1 : ActC) (x5 : MatC) (x6 : RowC) (n : Fin 8) (s : Fin 2048) (e : Fin 257) :
    val_main_v7 (F := Ideal) x1 x5 x6 (ix3 n s e) = proj x1 x5 x6 n s e := by
  rw [val_main_v7_apply, val_main_v4_apply, val_main_v6_apply, val_main_v5_apply]
  exact layer_read x1 x5 x6 n s e _ _ _
    (fun k => funext fun a => by match a with | ⟨0, _⟩ => rfl | ⟨1, _⟩ => rfl | ⟨2, _⟩ => rfl)
    (fun k => funext fun a => by match a with | ⟨0, _⟩ => rfl | ⟨1, _⟩ => rfl)
    (funext fun a => by match a with | ⟨0, _⟩ => rfl)

/-- The projected values: stage 11 at (n, s, e). -/
theorem proj_v (x2 : ActC) (x7 : MatC) (x8 : RowC) (n : Fin 8) (s : Fin 2048) (e : Fin 257) :
    val_main_v11 (F := Ideal) x2 x7 x8 (ix3 n s e) = proj x2 x7 x8 n s e := by
  rw [val_main_v11_apply, val_main_v8_apply, val_main_v10_apply, val_main_v9_apply]
  exact layer_read x2 x7 x8 n s e _ _ _
    (fun k => funext fun a => by match a with | ⟨0, _⟩ => rfl | ⟨1, _⟩ => rfl | ⟨2, _⟩ => rfl)
    (fun k => funext fun a => by match a with | ⟨0, _⟩ => rfl | ⟨1, _⟩ => rfl)
    (funext fun a => by match a with | ⟨0, _⟩ => rfl)

/-! ## The attention weights -/

/-- Stage 12 at (n, r, s): the inner product of query row r and key row s of the projections. -/
theorem scores_read (x0 x1 : ActC) (x3 : MatC) (x4 : RowC) (x5 : MatC) (x6 : RowC) (n : Fin 8) (r s : Fin 2048) :
    val_main_v12 (F := Ideal) x0 x1 x3 x4 x5 x6 (ix3 n r s)
      = ∑ e : Fin 257, proj x0 x3 x4 n r e * proj x1 x5 x6 n s e := by
  rw [val_main_v12_apply]
  refine Finset.sum_congr rfl fun k _ => ?_
  have hl : lidx_main_v12 (ix3 n r s) k = ix3 n r k :=
    funext fun a => by match a with | ⟨0, _⟩ => rfl | ⟨1, _⟩ => rfl | ⟨2, _⟩ => rfl
  have hr : ridx_main_v12 (ix3 n r s) k = ix3 n s k :=
    funext fun a => by match a with | ⟨0, _⟩ => rfl | ⟨1, _⟩ => rfl | ⟨2, _⟩ => rfl
  rw [hl, hr, proj_q, proj_k]

/-- Stage 20 at (n, r, s): 1 / (1 + exp (−(score · scale))), which is the logistic of the scaled score by the
    logistic's definition; the two constants 1.0 are the extended real one. -/
theorem weight_read (x0 x1 : ActC) (x3 : MatC) (x4 : RowC) (x5 : MatC) (x6 : RowC) (n : Fin 8) (r s : Fin 2048) :
    val_main_v20 (F := Ideal) x0 x1 x3 x4 x5 x6 (ix3 n r s)
      = weight (proj x0 x3 x4) (proj x1 x5 x6) n r s := by
  rw [val_main_v20_apply, val_main_v19_apply, val_main_cst_1_apply, val_main_v18_apply, val_main_v17_apply,
    val_main_cst_0_apply, val_main_v16_apply, val_main_v15_apply, val_main_v14_apply, val_main_v13_apply,
    val_main_cst_apply, scores_read]
  simp only [Ideal.ofBits_def, Ideal.hostDivf_def, Ideal.addf_def, Ideal.hostUnary_exp_def, Ideal.hostNegf_def,
    Ideal.negf_def, Ideal.mulf_def, Ideal.ofBits_one_f32]
  rfl

/-! ## The context and the result -/

/-- Stage 21 at (n, r, e): the weights of query row r times the projected value rows, summed over the key rows. -/
theorem context_read (x0 x1 x2 : ActC) (x3 : MatC) (x4 : RowC) (x5 : MatC) (x6 : RowC) (x7 : MatC) (x8 : RowC)
    (n : Fin 8) (r : Fin 2048) (e : Fin 257) :
    val_main_v21 (F := Ideal) x0 x1 x2 x3 x4 x5 x6 x7 x8 (ix3 n r e)
      = context (proj x0 x3 x4) (proj x1 x5 x6) (proj x2 x7 x8) n r e := by
  rw [val_main_v21_apply]
  unfold context
  refine Finset.sum_congr rfl fun k _ => ?_
  have hl : lidx_main_v21 (ix3 n r e) k = ix3 n r k :=
    funext fun a => by match a with | ⟨0, _⟩ => rfl | ⟨1, _⟩ => rfl | ⟨2, _⟩ => rfl
  have hr : ridx_main_v21 (ix3 n r e) k = ix3 n k e :=
    funext fun a => by match a with | ⟨0, _⟩ => rfl | ⟨1, _⟩ => rfl | ⟨2, _⟩ => rfl
  rw [hl, hr, weight_read, proj_v]

/-- Stage 25 at (n, r, d): the output layer of the context. -/
theorem result_read (x0 x1 x2 : ActC) (x3 : MatC) (x4 : RowC) (x5 : MatC) (x6 : RowC) (x7 : MatC) (x8 : RowC)
    (x9 : MatC) (x10 : RowC) (n : Fin 8) (r : Fin 2048) (d : Fin 257) :
    val_main_v25 (F := Ideal) x0 x1 x2 x3 x4 x5 x6 x7 x8 x9 x10 (ix3 n r d)
      = result x0 x1 x2 x3 x4 x5 x6 x7 x8 x9 x10 n r d := by
  rw [val_main_v25_apply, val_main_v22_apply, val_main_v24_apply, val_main_v23_apply]
  unfold result
  have hc : idx_main_v23 (idx_main_v24 (ix3 n r d)) = ix1 d := funext fun a => by match a with | ⟨0, _⟩ => rfl
  rw [Ideal.addf_def, hc]
  refine congrArg (· + x10 (ix1 d)) (Finset.sum_congr rfl fun k _ => ?_)
  have hl : lidx_main_v22 (ix3 n r d) k = ix3 n r k :=
    funext fun a => by match a with | ⟨0, _⟩ => rfl | ⟨1, _⟩ => rfl | ⟨2, _⟩ => rfl
  have hr : ridx_main_v22 (ix3 n r d) k = ix2 d k :=
    funext fun a => by match a with | ⟨0, _⟩ => rfl | ⟨1, _⟩ => rfl
  rw [hl, hr, context_read]

/-- The reference's result array is the specification's, as functions of the eleven argument arrays. -/
theorem reference_eq
    (x0 x1 x2 : (⟨S8x2048x257, .f32⟩ : BufTy).Contents (Elt Ideal))
    (x3 : (⟨S257x257, .f32⟩ : BufTy).Contents (Elt Ideal)) (x4 : (⟨S257, .f32⟩ : BufTy).Contents (Elt Ideal))
    (x5 : (⟨S257x257, .f32⟩ : BufTy).Contents (Elt Ideal)) (x6 : (⟨S257, .f32⟩ : BufTy).Contents (Elt Ideal))
    (x7 : (⟨S257x257, .f32⟩ : BufTy).Contents (Elt Ideal)) (x8 : (⟨S257, .f32⟩ : BufTy).Contents (Elt Ideal))
    (x9 : (⟨S257x257, .f32⟩ : BufTy).Contents (Elt Ideal)) (x10 : (⟨S257, .f32⟩ : BufTy).Contents (Elt Ideal)) :
    val_main_v25 (F := Ideal) x0 x1 x2 x3 x4 x5 x6 x7 x8 x9 x10
      = attention x0 x1 x2 x3 x4 x5 x6 x7 x8 x9 x10 := by
  funext i
  exact (congrArg (val_main_v25 (F := Ideal) x0 x1 x2 x3 x4 x5 x6 x7 x8 x9 x10) (eq_ix3 i)).trans
    (result_read x0 x1 x2 x3 x4 x5 x6 x7 x8 x9 x10 (i 0) (i 1) (i 2))

end Cert.ReferenceIdeal.RefValue

end
-- ==== Proof.lean ====
/-
  The certificate of a fused attention kernel with logistic weights against its plain reference.

  Both programs compute, from activations q, k, v [8, 2048, 257], four weight matrices and four bias rows: the three
  linear layers qp, kp, vp; for each batch the logistic of the scaled inner products of the rows of qp with the rows
  of kp; the sum over all 2048 key rows of those weights times the rows of vp; and the output linear layer of that
  context. The kernel does this per batch and per run of 512 query rows, keeping the batch's kp and vp in two scratch
  arrays that it fills at the batch's first run and reads back, 512 rows at a time, at every run, adding the four
  partial contexts to a zero block in order; it rounds intermediate values to a 16-bit format, and the weights arrive
  transposed. Over the extended reals a change of float format is the identity and addition is commutative and
  associative, so the four partial sums added in order are the one sum over 2048 rows: the two results are equal at
  every index, for every input (no finiteness is used).

  The frames of the two kernel programs and the kernel's run are the generated ones; the reference's frame is its
  generated run with the result dropped; the idealization rewrote nothing. The hand part is the value: the kernel's
  result array is the specification `Cert.AttentionSpec.attention` of the launched arguments
  (`Cert.KernelIdeal.KernelValue.run`), and so is the reference's (`Cert.ReferenceIdeal.RefValue.reference_eq`).
-/
import proofs.«126550_j16844861735386_2_alg».proof.Defs
import proofs.«126550_j16844861735386_2_alg».proof.Proof.Gen.Kernel
import proofs.«126550_j16844861735386_2_alg».proof.Proof.Gen.Kernel.Skeleton
import proofs.«126550_j16844861735386_2_alg».proof.Proof.Gen.Kernel.Launch
import proofs.«126550_j16844861735386_2_alg».proof.Proof.Gen.Kernel.Points
import proofs.«126550_j16844861735386_2_alg».proof.Proof.Gen.Kernel.Frame
import proofs.«126550_j16844861735386_2_alg».proof.Proof.Gen.KernelIdeal
import proofs.«126550_j16844861735386_2_alg».proof.Proof.Gen.KernelIdeal.Skeleton
import proofs.«126550_j16844861735386_2_alg».proof.Proof.Gen.KernelIdeal.Launch
import proofs.«126550_j16844861735386_2_alg».proof.Proof.Gen.KernelIdeal.Points
import proofs.«126550_j16844861735386_2_alg».proof.Proof.Gen.KernelIdeal.Frame
import proofs.«126550_j16844861735386_2_alg».proof.Proof.Gen.ReferenceIdeal
import proofs.«126550_j16844861735386_2_alg».proof.Proof.Gen.Pre_finite_inputs
import proofs.«126550_j16844861735386_2_alg».proof.Proof.Gen.KernelIdeal.Value
import proofs.«126550_j16844861735386_2_alg».proof.Proof.Gen.ReferenceIdeal.Run
import proofs.«126550_j16844861735386_2_alg».proof.Proof.Gen.ReferenceIdeal.Read
import proofs.«126550_j16844861735386_2_alg».proof.Proof.KernelValue
import proofs.«126550_j16844861735386_2_alg».proof.Proof.ReferenceIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's result array of arguments that agree. -/
theorem algebraic : Cert.algebraic_KernelIdeal_ReferenceIdeal := by
  intro m ρ m' ρ' _ hagree
  refine ⟨fun c => Cert.KernelIdeal.PointValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v25_eq, Cert.ReferenceIdeal.RefValue.reference_eq, e0, e1, e2, e3, e4, e5, e6, e7,
    e8, e9, e10]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
